-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x4096 : Shape := ⟨3, ![4, 512, 4096]⟩
abbrev S4096x14336 : Shape := ⟨2, ![4096, 14336]⟩
abbrev S14336x4096 : Shape := ⟨2, ![14336, 4096]⟩
abbrev S_ : Shape := ⟨0, ![]⟩

class Facts : Prop where
  bcast_S_S4x512x4096 : S_.BroadcastsInDim S4x512x4096 (![] : Fin 0 → Fin S4x512x4096.rank)
  reducesTo_S4x512x4096_S_d0_1_2 : S4x512x4096.ReducesTo [0, 1, 2] S_
  h_S_ : 0 < S_.numel
  bcast_S_S4096x14336 : S_.BroadcastsInDim S4096x14336 (![] : Fin 0 → Fin S4096x14336.rank)
  reducesTo_S4096x14336_S_d0_1 : S4096x14336.ReducesTo [0, 1] S_
  bcast_S_S14336x4096 : S_.BroadcastsInDim S14336x4096 (![] : Fin 0 → Fin S14336x4096.rank)
  reducesTo_S14336x4096_S_d0_1 : S14336x4096.ReducesTo [0, 1] S_

variable [Facts]

def fn_part1 {F : FTy → Type} [FloatOps F] (main_v13 : IVec S_ 1) (main_v16 : IVec S14336x4096 1) : IVec S_ 1 :=
  let main_c_5 : IVec S_ 1 := constantI S_ 1 1#1
  let main_v17 : IVec S_ 1 := (fun x v => Host.reduce IntOp.andi x v reducesTo_S14336x4096_S_d0_1 h_S_) main_v16 main_c_5
  let main_v18 : IVec S_ 1 := andi main_v13 main_v17
  main_v18

def fn {F : FTy → Type} [FloatOps F] (main_arg0 : FVec F S4x512x4096 .f32) (main_arg1 : FVec F S4096x14336 .f32) (main_arg2 : FVec F S4096x14336 .f32) (main_arg3 : FVec F S14336x4096 .f32) : IVec S_ 1 :=
  let main_v0 : FVec F S4x512x4096 .f32 := Host.absf main_arg0
  let main_cst : FVec F S_ .f32 := constant S_ .f32 0x7F800000#32
  let main_v1 : FVec F S4x512x4096 .f32 := broadcastInDim S4x512x4096 ![] bcast_S_S4x512x4096 main_cst
  let main_v2 : IVec S4x512x4096 1 := cmpf .olt main_v0 main_v1
  let main_c : IVec S_ 1 := constantI S_ 1 1#1
  let main_v3 : IVec S_ 1 := (fun x v => Host.reduce IntOp.andi x v reducesTo_S4x512x4096_S_d0_1_2 h_S_) main_v2 main_c
  let main_v4 : FVec F S4096x14336 .f32 := Host.absf main_arg1
  let main_cst_0 : FVec F S_ .f32 := constant S_ .f32 0x7F800000#32
  let main_v5 : FVec F S4096x14336 .f32 := broadcastInDim S4096x14336 ![] bcast_S_S4096x14336 main_cst_0
  let main_v6 : IVec S4096x14336 1 := cmpf .olt main_v4 main_v5
  let main_c_1 : IVec S_ 1 := constantI S_ 1 1#1
  let main_v7 : IVec S_ 1 := (fun x v => Host.reduce IntOp.andi x v reducesTo_S4096x14336_S_d0_1 h_S_) main_v6 main_c_1
  let main_v8 : IVec S_ 1 := andi main_v3 main_v7
  let main_v9 : FVec F S4096x14336 .f32 := Host.absf main_arg2
  let main_cst_2 : FVec F S_ .f32 := constant S_ .f32 0x7F800000#32
  let main_v10 : FVec F S4096x14336 .f32 := broadcastInDim S4096x14336 ![] bcast_S_S4096x14336 main_cst_2
  let main_v11 : IVec S4096x14336 1 := cmpf .olt main_v9 main_v10
  let main_c_3 : IVec S_ 1 := constantI S_ 1 1#1
  let main_v12 : IVec S_ 1 := (fun x v => Host.reduce IntOp.andi x v reducesTo_S4096x14336_S_d0_1 h_S_) main_v11 main_c_3
  let main_v13 : IVec S_ 1 := andi main_v8 main_v12
  let main_v14 : FVec F S14336x4096 .f32 := Host.absf main_arg3
  let main_cst_4 : FVec F S_ .f32 := constant S_ .f32 0x7F800000#32
  let main_v15 : FVec F S14336x4096 .f32 := broadcastInDim S14336x4096 ![] bcast_S_S14336x4096 main_cst_4
  let main_v16 : IVec S14336x4096 1 := cmpf .olt main_v14 main_v15
  fn_part1 (F := F) main_v13 main_v16
-- ==== Kernel.lean ====
abbrev S4x512x4096 : Shape := ⟨3, ![4, 512, 4096]⟩
abbrev S4096x14336 : Shape := ⟨2, ![4096, 14336]⟩
abbrev S14336x4096 : Shape := ⟨2, ![14336, 4096]⟩
abbrev S2048x4096 : Shape := ⟨2, ![2048, 4096]⟩
abbrev S512x4096 : Shape := ⟨2, ![512, 4096]⟩
abbrev S4096x256 : Shape := ⟨2, ![4096, 256]⟩
abbrev S256x4096 : Shape := ⟨2, ![256, 4096]⟩
abbrev S512x256 : Shape := ⟨2, ![512, 256]⟩

abbrev nBuf : Space → Nat
  | .hbm => 8
  | .vmem => 10
  | .smem => 0
  | _ => 0

abbrev bufTy : (tb : Table) → Fin (tcTables nBuf tb) → BufTy
  | .hbm, ⟨0, _⟩ => ⟨S4x512x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S2048x4096, .f32⟩
  | .hbm, ⟨5, _⟩ => ⟨S2048x4096, .bf16⟩
  | .hbm, ⟨6, _⟩ => ⟨S2048x4096, .f32⟩
  | .hbm, ⟨7, _⟩ => ⟨S4x512x4096, .f32⟩
  | .local _ .vmem, ⟨0, _⟩ => ⟨S512x4096, .bf16⟩
  | .local _ .vmem, ⟨1, _⟩ => ⟨S512x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S256x4096, .f32⟩
  | .local _ .vmem, ⟨7, _⟩ => ⟨S256x4096, .f32⟩
  | .local _ .vmem, ⟨8, _⟩ => ⟨S512x4096, .f32⟩
  | .local _ .vmem, ⟨9, _⟩ => ⟨S512x4096, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 56], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_12 : BitVec 32 := 0#32
  let v23 : BitVec 1 := Scalar.cmpi .ne v22 c0_i32_12
  v23

def k0_cond2 (i : grid0.Coords) : BitVec 1 :=
  let arg1 : BitVec 32 := BitVec.ofNat 32 (i 1).val
  let c0_i32_13 : BitVec 32 := 0#32
  let v24 : BitVec 1 := Scalar.cmpi .ne arg1 c0_i32_13
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S4x512x4096_S2048x4096 : S4x512x4096.ShapeCasts S2048x4096
  bitsLt_bf16_f32 : FTy.bits .bf16 < FTy.bits .f32
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x256_S4096x256_0_0 : ∀ a, (![0, 0] : Fin 2 → Nat) a + S4096x256.size a ≤ S4096x256.size a
  h_S4096x256 : 0 < S4096x256.numel
  inb_S256x4096_S256x4096_0_0 : ∀ a, (![0, 0] : Fin 2 → Nat) a + S256x4096.size a ≤ S256x4096.size a
  h_S256x4096 : 0 < S256x4096.numel
  shapeCasts_S2048x4096_S4x512x4096 : S2048x4096.ShapeCasts S4x512x4096
  dot_S512x4096_S4096x256_S512x256_1_0_0_1_n_n_wf : DotDims.WF S512x4096 S4096x256 S512x256 [1] [0] [0] [1] [] []
  dot_S512x256_S256x4096_S512x4096_1_0_0_1_n_n_wf : DotDims.WF S512x256 S256x4096 S512x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x14336.size a
  hwx0_1 : ∀ i : grid0.Coords, EltTy.bits .f32 = 32 ∨ (Rect.block (s := S4096x14336) S4096x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x256.size a ≤ S4096x14336.size a
  hwx0_2 : ∀ i : grid0.Coords, EltTy.bits .f32 = 32 ∨ (Rect.block (s := S4096x14336) S4096x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S14336x4096.size a
  hwx0_3 : ∀ i : grid0.Coords, EltTy.bits .f32 = 32 ∨ (Rect.block (s := S14336x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S2048x4096.size a
  hwx0_4 : ∀ i : grid0.Coords, EltTy.bits .f32 = 32 ∨ (Rect.block (s := S2048x4096) S512x4096.size (cc0_transform_4 i) (hinb0_4 i)).WholeWords (EltTy.packing .f32)

variable [Facts₀]

def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf

abbrev win0_0 : Pipeline.Window sig grid0 :=
  Pipeline.Window.ofSpec (Memref.whole main_v1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond1 i == 1#1) && !(k0_cond2 i == 1#1) | ⟨_ + 5, h⟩ => absurd h (Nat.not_lt.2 (Nat.le_add_left _ _))

class Facts : Prop extends Facts₀ where

variable [Facts]
-- ==== ReferenceIdeal.lean ====
abbrev S4x512x4096 : Shape := ⟨3, ![4, 512, 4096]⟩
abbrev S4096x14336 : Shape := ⟨2, ![4096, 14336]⟩
abbrev S14336x4096 : Shape := ⟨2, ![14336, 4096]⟩
abbrev S2048x4096 : Shape := ⟨2, ![2048, 4096]⟩
abbrev S2048x14336 : Shape := ⟨2, ![2048, 14336]⟩
abbrev S256x512 : Shape := ⟨2, ![256, 512]⟩
abbrev S512x256 : Shape := ⟨2, ![512, 256]⟩
abbrev S256x256 : Shape := ⟨2, ![256, 256]⟩

abbrev nBuf : Space → Nat
  | .hbm => 8
  | .vmem => 17
  | .smem => 0
  | _ => 0

abbrev bufTy : (tb : Table) → Fin (tcTables nBuf tb) → BufTy
  | .hbm, ⟨0, _⟩ => ⟨S4x512x4096, .f32⟩
  | .hbm, ⟨1, _⟩ => ⟨S4096x14336, .f32⟩
  | .hbm, ⟨2, _⟩ => ⟨S4096x14336, .f32⟩
  | .hbm, ⟨3, _⟩ => ⟨S14336x4096, .f32⟩
  | .hbm, ⟨4, _⟩ => ⟨S2048x4096, .f32⟩
  | .hbm, ⟨5, _⟩ => ⟨S2048x14336, .f32⟩
  | .hbm, ⟨6, _⟩ => ⟨S2048x4096, .f32⟩
  | .hbm, ⟨7, _⟩ => ⟨S4x512x4096, .f32⟩
  | .local _ .vmem, ⟨0, _⟩ => ⟨S256x512, .f32⟩
  | .local _ .vmem, ⟨1, _⟩ => ⟨S256x512, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x512, .f32⟩
  | .local _ .vmem, ⟨11, _⟩ => ⟨S256x512, .f32⟩
  | .local _ .vmem, ⟨12, _⟩ => ⟨S512x256, .f32⟩
  | .local _ .vmem, ⟨13, _⟩ => ⟨S512x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | _, _ => ⟨S4x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 56, 8], ![false, false, false]⟩

def k0_cond2 (i : grid0.Coords) : BitVec 1 :=
  let arg2 : BitVec 32 := BitVec.ofNat 32 (i 2).val
  let c7_i32 : BitVec 32 := 7#32
  let v19 : BitVec 1 := Scalar.cmpi .eq arg2 c7_i32
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 16, 28], ![false, false, false]⟩

def k1_cond2 (i : grid1.Coords) : BitVec 1 :=
  let arg2 : BitVec 32 := BitVec.ofNat 32 (i 2).val
  let c27_i32 : BitVec 32 := 27#32
  let v12 : BitVec 1 := Scalar.cmpi .eq arg2 c27_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x512x4096_S2048x4096 : S4x512x4096.ShapeCasts S2048x4096
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S2048x4096_S4x512x4096 : S2048x4096.ShapeCasts S4x512x4096
  dot_S256x512_S512x256_S256x256_1_0_0_1_n_n_wf : DotDims.WF S256x512 S512x256 S256x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S2048x4096.size a
  hwx0_0 : ∀ i : grid0.Coords, EltTy.bits .f32 = 32 ∨ (Rect.block (s := S2048x4096) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S4096x14336.size a
  hwx0_1 : ∀ i : grid0.Coords, EltTy.bits .f32 = 32 ∨ (Rect.block (s := S4096x14336) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S4096x14336.size a
  hwx0_2 : ∀ i : grid0.Coords, EltTy.bits .f32 = 32 ∨ (Rect.block (s := S4096x14336) S512x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S2048x14336.size a
  hwx0_3 : ∀ i : grid0.Coords, EltTy.bits .f32 = 32 ∨ (Rect.block (s := S2048x14336) S256x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x512.size a ≤ S2048x14336.size a
  hwx1_0 : ∀ i : grid1.Coords, EltTy.bits .f32 = 32 ∨ (Rect.block (s := S2048x14336) S256x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S14336x4096.size a
  hwx1_1 : ∀ i : grid1.Coords, EltTy.bits .f32 = 32 ∨ (Rect.block (s := S14336x4096) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S2048x4096.size a
  hwx1_2 : ∀ i : grid1.Coords, EltTy.bits .f32 = 32 ∨ (Rect.block (s := S2048x4096) S256x256.size (cc1_transform_2 i) (hinb1_2 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.ofSpec (Memref.whole main_v0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== Proof.BitsMlpCases.lean ====
import proofs.«103171_g2000707067673186_pallasbulk_507_3_alg».proof.Proof.Gen.Kernel.Frame
import proofs.«103171_g2000707067673186_pallasbulk_507_3_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two cases of the fused MLP body

The grid is 4 × 56: the first coordinate picks a block of 512 rows of the activations, the second (call it j) a
slab of 256 hidden units. At every point the body computes, from the point's four input blocks, the slab's
contribution to the 512 × 4096 output block. At j = 0 it stores that contribution (the output block starts a new
sum); at j ≠ 0 it adds it to what the block holds. The two conditionals of the body test exactly j = 0 and j ≠ 0, so
at every point exactly one of them is taken. Here: the two conditions in closed form over the points, the fact
that the output block is stored into at every point, and the body's run in each of the two cases. -/

/-! ## The conditions over the points -/

/-- The first condition (j = 0) holds exactly at the first point of each run of 56 points. -/
theorem hcond1 : ∀ t : Fin cfg0.N, k0_cond1 (grid0.coords t) = 1#1 ↔ t.val % 56 = 0 :=
  (by decide +kernel : ∀ t : Fin grid0.N, k0_cond1 (grid0.coords t) = 1#1 ↔ t.val % 56 = 0)

/-- The second condition (j ≠ 0) holds exactly at the other points. -/
theorem hcond2 : ∀ t : Fin cfg0.N, k0_cond2 (grid0.coords t) = 1#1 ↔ ¬ t.val % 56 = 0 :=
  (by decide +kernel : ∀ t : Fin grid0.N, k0_cond2 (grid0.coords t) = 1#1 ↔ ¬ t.val % 56 = 0)

/-- For every value j < 56 of the second coordinate, as a 32-bit word, one of "j = 0" and "j ≠ 0" computes to true:
    "both fail" is false. -/
theorem live_word : ∀ j : Fin 56,
    (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by
  decide +kernel

/-- So the output window is stored into at every grid point: it is never idle. -/
theorem live4 (i : grid0.Coords) : cfg0.idle 4 i = false := live_word ⟨(i 1).val, (i 1).isLt⟩

/-- The zero offsets of a whole-block access, however spelt. -/
theorem zero2 : (![0, 0] : Fin 2 → ℕ) = fun _ => 0 := by funext a; fin_cases a <;> rfl

/-- After ONE store of a whole block (the rectangle of the block's full size at zero offsets) a buffer reads exactly
    the stored value, whatever it held before: the one piece covers every index. -/
theorem read_whole_store {sg : RefSig} {κ : Kind} {sp : Space} {S : Shape} {e : EltTy} {Val : EltTy → Type}
    [∀ e, Nonempty (Val e)] (v : View sg κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _
    (fun y => ⟨_, List.mem_singleton_self _, View.mem_set_unit_zero hz inb y⟩)).trans (View.canon_unit_zero hz inb w)

/-! ## The staging buffers at a point -/

/-- Each window's current staging buffer at point `t`, and that it is a whole buffer. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)

/-! ## The body's run in each case

On whole staging buffers, the inputs' at contents `x0 … x3`: the body loads the four input blocks, and its one
store into the output buffer is a store of the whole block, so the buffer then reads exactly the stored value. -/

set_option maxHeartbeats 1000000 in
/-- The body at a point with j = 0: the first conditional is taken and the second is not, so the output block is
    overwritten by the contribution of the four input blocks, whatever it held. -/
theorem run_first (c : Dev nD) (i : grid0.Coords)
    (arg2 : Memref sig .tc .vmem S512x4096 .bf16) (harg2 : arg2.IsWhole)
    (arg3 : Memref sig .tc .vmem S4096x256 .f32) (harg3 : arg3.IsWhole)
    (arg4 : Memref sig .tc .vmem S4096x256 .f32) (harg4 : arg4.IsWhole)
    (arg5 : Memref sig .tc .vmem S256x4096 .f32) (harg5 : arg5.IsWhole)
    (arg6 : Memref sig .tc .vmem S512x4096 .f32) (harg6 : arg6.IsWhole)
    (hc1 : k0_cond1 i = 1#1) (hc2 : ¬ k0_cond2 i = 1#1)
    (x0 : Vec F S512x4096 .bf16) (x1 : Vec F S4096x256 .f32) (x2 : Vec F S4096x256 .f32) (x3 : Vec F S256x4096 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) E
          (cc0__mlp_kernel i arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_whole_store _ _ zero2 _ _).trans ?_
  simp only [View.readAt_eq_ld, harg2.read_unread, harg3.read_unread, harg4.read_unread, harg5.read_unread,
    View.ld_unit_zero (S := S512x4096) zero2, View.ld_unit_zero (S := S4096x256) zero2,
    View.ld_unit_zero (S := S256x4096) zero2]

set_option maxHeartbeats 1000000 in
/-- The body at a point with j ≠ 0: the first conditional is not taken and the second is, so the output block,
    holding `xo`, is overwritten by `xo` plus the contribution of the four input blocks. -/
theorem run_next (c : Dev nD) (i : grid0.Coords)
    (arg2 : Memref sig .tc .vmem S512x4096 .bf16) (harg2 : arg2.IsWhole)
    (arg3 : Memref sig .tc .vmem S4096x256 .f32) (harg3 : arg3.IsWhole)
    (arg4 : Memref sig .tc .vmem S4096x256 .f32) (harg4 : arg4.IsWhole)
    (arg5 : Memref sig .tc .vmem S256x4096 .f32) (harg5 : arg5.IsWhole)
    (arg6 : Memref sig .tc .vmem S512x4096 .f32) (harg6 : arg6.IsWhole)
    (hc1 : ¬ k0_cond1 i = 1#1) (hc2 : k0_cond2 i = 1#1)
    (x0 : Vec F S512x4096 .bf16) (x1 : Vec F S4096x256 .f32) (x2 : Vec F S4096x256 .f32) (x3 : Vec F S256x4096 .f32)
    (xo : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x0 x1 x2 x3 xo)) -∗ K ⟨⟩))
      ⊢ wp frame (wpE (defs₀ (F := F)) Variants.none c none) E
          (cc0__mlp_kernel i arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_whole_store _ _ zero2 _ _).trans ?_
  simp only [View.readAt_eq_ld, harg2.read_unread, harg3.read_unread, harg4.read_unread, harg5.read_unread, harg6.read_unread,
    View.ld_unit_zero (S := S512x4096) zero2, View.ld_unit_zero (S := S4096x256) zero2,
    View.ld_unit_zero (S := S256x4096) zero2]

end Cert.Kernel.Body

end
-- ==== Proof.BitsMlpFrame.lean ====
import proofs.«103171_g2000707067673186_pallasbulk_507_3_alg».proof.Proof.BitsMlpCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each point -/

/-- THE ACCUMULATION. What the output window's staging buffer holds after the body at position `n`: at the first point
    of a run of 56 (j = 0) the contribution of the point's four input blocks; at a later point of the run that
    contribution added to what the point before left (the buffer is not written back in between). -/
def acc (c : Dev nD) : (n : ℕ) → n < cfg0.N → Vec F S512x4096 .f32
  | 0, hn => k0_pay1 (iblk m c 0 ⟨0, hn⟩) (iblk m c 1 ⟨0, hn⟩) (iblk m c 2 ⟨0, hn⟩) (iblk m c 3 ⟨0, hn⟩)
  | n + 1, hn =>
    if (n + 1) % 56 = 0 then
      k0_pay1 (iblk m c 0 ⟨n + 1, hn⟩) (iblk m c 1 ⟨n + 1, hn⟩) (iblk m c 2 ⟨n + 1, hn⟩) (iblk m c 3 ⟨n + 1, hn⟩)
    else
      k0_pay2 (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- At the first point of a run the accumulation is the point's contribution. -/
theorem acc_first (c : Dev nD) (t : Fin cfg0.N) (h : t.val % 56 = 0) :
    acc m c t.val t.isLt = k0_pay1 (iblk m c 0 t) (iblk m c 1 t) (iblk m c 2 t) (iblk m c 3 t) := by
  obtain ⟨n, hn⟩ := t
  cases n with
  | zero => exact rfl
  | succ n => exact (if_pos h).trans rfl

/-- At a later point of a run it is the point's contribution added to what the point before left. -/
theorem acc_next (c : Dev nD) (t : Fin cfg0.N) (h : ¬ t.val % 56 = 0) :
    acc m c t.val t.isLt = k0_pay2 (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The pipeline's proof data -/

/-- The proof data of the one pipeline on core `c`: the arrays as the region finds them; after the body at point
    `t` each input's buffer at its block and the output's at the accumulation; the invariant the scoped rest and
    the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

/-- The proof data's arrays are the contents the region finds at entry. -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = acc m c t.val t.isLt := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

/-- At a point that is not the first of its run the output's current staging buffer holds what the body left at the
    point before: the point is not the first of all, the buffer was not written back in between (write-backs happen
    at the last point of a run only), and the window is stored into at every point and uncut. -/
theorem before_out_next (c : Dev nD) (t : Fin cfg0.N) (h0 : ¬ t.val % 56 = 0) (d) :
    (dats m 0 c).before 4 t d = acc m c (t.val - 1) (Nat.lt_of_le_of_lt (Nat.sub_le _ _) t.isLt) := by
  have hN : t.val < 224 := lt_of_lt_of_eq t.isLt (show cfg0.N = 224 from N_0)
  rw [Dat.before_out_kept _ 4 rfl t (by omega)
    (Bool.eq_false_iff.mpr fun h => by have := (flush0_4 _).mp h; dsimp only at this; omega)
    live4 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the closed forms of the two conditions say which
    case the point is in; at a later point of a run the output's buffer holds what the point before left; so the case's
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  by_cases h0 : t.val % 56 = 0
  · rw [acc_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((hcond1 t).mpr h0) (fun h => (hcond2 t).mp h h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc_next m c t h0]
    simp only [before_out_next m c t h0]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (fun h => h0 ((hcond1 t).mp h)) ((hcond2 t).mpr h0)
      (iblk m c 0 t) (iblk m c 1 t) (iblk m c 2 t) (iblk m c 3 t)
      (acc m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the windows one by one, the output window's "stores nothing
    here" alternative never arising (one of the two conditions holds at every point). -/
theorem body_obligation (c : Dev nD) : BodyObligation (dats (F := F) m 0 c) (defs₀ (F := F)) Variants.none () Set.univ := fun t => by
  rw [bigSep_W0, bigSep_W0, live4 (cfg0.grid.coords t)]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body

end
-- ==== Proof.MlpCases.lean ====
import proofs.«103171_g2000707067673186_pallasbulk_507_3_alg».proof.Proof.Gen.KernelIdeal.Frame
import proofs.«103171_g2000707067673186_pallasbulk_507_3_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The two cases of the fused MLP body

The grid is 4 × 56: the first coordinate picks a block of 512 rows of the activations, the second (call it j) a
slab of 256 hidden units. At every point the body computes, from the point's four input blocks, the slab's
contribution to the 512 × 4096 output block. At j = 0 it stores that contribution (the output block starts a new
sum); at j ≠ 0 it adds it to what the block holds. The two conditionals of the body test exactly j = 0 and j ≠ 0, so
at every point exactly one of them is taken. Here: the two conditions in closed form over the points, the fact
that the output block is stored into at every point, and the body's run in each of the two cases. -/

/-! ## The conditions over the points -/

/-- The first condition (j = 0) holds exactly at the first point of each run of 56 points. -/
theorem hcond1 : ∀ t : Fin cfg0.N, k0_cond1 (grid0.coords t) = 1#1 ↔ t.val % 56 = 0 :=
  (by decide +kernel : ∀ t : Fin grid0.N, k0_cond1 (grid0.coords t) = 1#1 ↔ t.val % 56 = 0)

/-- The second condition (j ≠ 0) holds exactly at the other points. -/
theorem hcond2 : ∀ t : Fin cfg0.N, k0_cond2 (grid0.coords t) = 1#1 ↔ ¬ t.val % 56 = 0 :=
  (by decide +kernel : ∀ t : Fin grid0.N, k0_cond2 (grid0.coords t) = 1#1 ↔ ¬ t.val % 56 = 0)

/-- For every value j < 56 of the second coordinate, as a 32-bit word, one of "j = 0" and "j ≠ 0" computes to true:
    "both fail" is false. -/
theorem live_word : ∀ j : Fin 56,
    (!(Scalar.cmpi .ne (Scalar.extui (Scalar.cmpi .eq (BitVec.ofNat 32 j.val) 0#32)) 0#32 == 1#1)
      && !(Scalar.cmpi .ne (Scalar.extui (Scalar.cmpi .ne (BitVec.ofNat 32 j.val) 0#32)) 0#32 == 1#1)) = false := by
  decide +kernel

/-- So the output window is stored into at every grid point: it is never idle. -/
theorem live4 (i : grid0.Coords) : cfg0.idle 4 i = false := live_word ⟨(i 1).val, (i 1).isLt⟩

/-- The zero offsets of a whole-block access, however spelt. -/
theorem zero2 : (![0, 0] : Fin 2 → ℕ) = fun _ => 0 := by funext a; fin_cases a <;> rfl

/-- After ONE store of a whole block (the rectangle of the block's full size at zero offsets) a buffer reads exactly
    the stored value, whatever it held before: the one piece covers every index. -/
theorem read_whole_store {sg : RefSig} {κ : Kind} {sp : Space} {S : Shape} {e : EltTy} {Val : EltTy → Type}
    [∀ e, Nonempty (Val e)] (v : View sg κ sp S e) (f : v.ty.Contents Val) {off : Fin S.rank → ℕ}
    (hz : off = fun _ => 0) (inb : ∀ a, off a + S.size a ≤ S.size a) (w : S.Idx → Val e) :
    v.read Val (v.writes Val f [(⟨Rect.unit off S.size inb, w⟩ : View.Piece Val S e)]) = w :=
  (View.read_writes_eq_canon v f _
    (fun y => ⟨_, List.mem_singleton_self _, View.mem_set_unit_zero hz inb y⟩)).trans (View.canon_unit_zero hz inb w)

/-! ## The staging buffers at a point -/

/-- Each window's current staging buffer at point `t`, and that it is a whole buffer. -/
abbrev ms0 (t : Fin cfg0.N) : Memref sig .tc .vmem S512x4096 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S4096x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S4096x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x4096 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x4096 .f32 := win0_4.stage (cfg0.slots t 4)
abbrev hs4 (t : Fin cfg0.N) : (ms4 t).IsWhole := hstage0_4 ((cfg0.slots t 4).cast nbuf0_4)

/-! ## The body's run in each case

On whole staging buffers, the inputs' at contents `x0 … x3`: the body loads the four input blocks, and its one
store into the output buffer is a store of the whole block, so the buffer then reads exactly the stored value. -/

set_option maxHeartbeats 1000000 in
/-- The body at a point with j = 0: the first conditional is taken and the second is not, so the output block is
    overwritten by the contribution of the four input blocks, whatever it held. -/
theorem run_first (c : Dev nD) (i : grid0.Coords)
    (arg2 : Memref sig .tc .vmem S512x4096 .bf16) (harg2 : arg2.IsWhole)
    (arg3 : Memref sig .tc .vmem S4096x256 .f32) (harg3 : arg3.IsWhole)
    (arg4 : Memref sig .tc .vmem S4096x256 .f32) (harg4 : arg4.IsWhole)
    (arg5 : Memref sig .tc .vmem S256x4096 .f32) (harg5 : arg5.IsWhole)
    (arg6 : Memref sig .tc .vmem S512x4096 .f32) (harg6 : arg6.IsWhole)
    (hc1 : k0_cond1 i = 1#1) (hc2 : ¬ k0_cond2 i = 1#1)
    (x0 : Vec F S512x4096 .bf16) (x1 : Vec F S4096x256 .f32) (x2 : Vec F S4096x256 .f32) (x3 : Vec F S256x4096 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x0 x1 x2 x3)) -∗ K ⟨⟩))
      ⊢ wp frame (wpE (defs₀ (F := F)) Variants.none c none) E
          (cc0__mlp_kernel i arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg2.eq_unread hf0; obtain rfl := harg3.eq_unread hf1
  obtain rfl := harg4.eq_unread hf2; obtain rfl := harg5.eq_unread hf3
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_whole_store _ _ zero2 _ _).trans ?_
  simp only [View.readAt_eq_ld, harg2.read_unread, harg3.read_unread, harg4.read_unread, harg5.read_unread,
    View.ld_unit_zero (S := S512x4096) zero2, View.ld_unit_zero (S := S4096x256) zero2,
    View.ld_unit_zero (S := S256x4096) zero2]

set_option maxHeartbeats 1000000 in
/-- The body at a point with j ≠ 0: the first conditional is not taken and the second is, so the output block,
    holding `xo`, is overwritten by `xo` plus the contribution of the four input blocks. -/
theorem run_next (c : Dev nD) (i : grid0.Coords)
    (arg2 : Memref sig .tc .vmem S512x4096 .bf16) (harg2 : arg2.IsWhole)
    (arg3 : Memref sig .tc .vmem S4096x256 .f32) (harg3 : arg3.IsWhole)
    (arg4 : Memref sig .tc .vmem S4096x256 .f32) (harg4 : arg4.IsWhole)
    (arg5 : Memref sig .tc .vmem S256x4096 .f32) (harg5 : arg5.IsWhole)
    (arg6 : Memref sig .tc .vmem S512x4096 .f32) (harg6 : arg6.IsWhole)
    (hc1 : ¬ k0_cond1 i = 1#1) (hc2 : k0_cond2 i = 1#1)
    (x0 : Vec F S512x4096 .bf16) (x1 : Vec F S4096x256 .f32) (x2 : Vec F S4096x256 .f32) (x3 : Vec F S256x4096 .f32)
    (xo : Vec F S512x4096 .f32)
    (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay2 x0 x1 x2 x3 xo)) -∗ K ⟨⟩))
      ⊢ wp frame (wpE (defs₀ (F := F)) Variants.none c none) E
          (cc0__mlp_kernel i arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  obtain rfl := harg2.eq_unread hf0; obtain rfl := harg3.eq_unread hf1
  obtain rfl := harg4.eq_unread hf2; obtain rfl := harg5.eq_unread hf3
  obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact H4
  ipureintro
  refine (read_whole_store _ _ zero2 _ _).trans ?_
  simp only [View.readAt_eq_ld, harg2.read_unread, harg3.read_unread, harg4.read_unread, harg5.read_unread, harg6.read_unread,
    View.ld_unit_zero (S := S512x4096) zero2, View.ld_unit_zero (S := S4096x256) zero2,
    View.ld_unit_zero (S := S256x4096) zero2]

end Cert.KernelIdeal.Body

end
-- ==== Proof.MlpFrame.lean ====
import proofs.«103171_g2000707067673186_pallasbulk_507_3_alg».proof.Proof.MlpCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the output block holds after each point -/

/-- THE ACCUMULATION. What the output window's staging buffer holds after the body at position `n`: at the first point
    of a run of 56 (j = 0) the contribution of the point's four input blocks; at a later point of the run that
    contribution added to what the point before left (the buffer is not written back in between). -/
def acc (c : Dev nD) : (n : ℕ) → n < cfg0.N → Vec F S512x4096 .f32
  | 0, hn => k0_pay1 (iblk m c 0 ⟨0, hn⟩) (iblk m c 1 ⟨0, hn⟩) (iblk m c 2 ⟨0, hn⟩) (iblk m c 3 ⟨0, hn⟩)
  | n + 1, hn =>
    if (n + 1) % 56 = 0 then
      k0_pay1 (iblk m c 0 ⟨n + 1, hn⟩) (iblk m c 1 ⟨n + 1, hn⟩) (iblk m c 2 ⟨n + 1, hn⟩) (iblk m c 3 ⟨n + 1, hn⟩)
    else
      k0_pay2 (iblk m c 0 ⟨n + 1, hn⟩) (iblk m c 1 ⟨n + 1, hn⟩) (iblk m c 2 ⟨n + 1, hn⟩) (iblk m c 3 ⟨n + 1, hn⟩)
        (acc c n (Nat.lt_of_succ_lt hn))

/-- At the first point of a run the accumulation is the point's contribution. -/
theorem acc_first (c : Dev nD) (t : Fin cfg0.N) (h : t.val % 56 = 0) :
    acc m c t.val t.isLt = k0_pay1 (iblk m c 0 t) (iblk m c 1 t) (iblk m c 2 t) (iblk m c 3 t) := by
  obtain ⟨n, hn⟩ := t
  cases n with
  | zero => exact rfl
  | succ n => exact (if_pos h).trans rfl

/-- At a later point of a run it is the point's contribution added to what the point before left. -/
theorem acc_next (c : Dev nD) (t : Fin cfg0.N) (h : ¬ t.val % 56 = 0) :
    acc m c t.val t.isLt = k0_pay2 (iblk m c 0 t) (iblk m c 1 t) (iblk m c 2 t) (iblk m c 3 t)
      (acc m c (t.val - 1) (Nat.lt_of_le_of_lt (Nat.sub_le _ _) t.isLt)) := by
  obtain ⟨n, hn⟩ := t
  cases n with
  | zero => exact (by exfalso; (try dsimp only at h); exact absurd (Nat.zero_mod _) h)
  | succ n => exact (if_neg h).trans rfl

/-! ## The pipeline's proof data -/

/-- The proof data of the one pipeline on core `c`: the arrays as the region finds them; after the body at point
    `t` each input's buffer at its block and the output's at the accumulation; the invariant the scoped rest and
    the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => acc m c t.val t.isLt
  Φ _ := Pipeline.ΦA spec0 c
  q _ := fullShare
  owed _ := 0

/-- The proof data's arrays are the contents the region finds at entry. -/
theorem A_eq (c : Dev nD) (w : Fin cfg0.W) : (dats m 0 c).A w = V m c (Pipeline.arrRef spec0 w) := by
  dsimp only [dats]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = acc m c t.val t.isLt := by dsimp only [dats]

/-- Each input's current staging buffer holds its block at every point, fetched there or not. -/
theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d

/-- At a point that is not the first of its run the output's current staging buffer holds what the body left at the
    point before: the point is not the first of all, the buffer was not written back in between (write-backs happen
    at the last point of a run only), and the window is stored into at every point and uncut. -/
theorem before_out_next (c : Dev nD) (t : Fin cfg0.N) (h0 : ¬ t.val % 56 = 0) (d) :
    (dats m 0 c).before 4 t d = acc m c (t.val - 1) (Nat.lt_of_le_of_lt (Nat.sub_le _ _) t.isLt) := by
  have hN : t.val < 224 := lt_of_lt_of_eq t.isLt (show cfg0.N = 224 from N_0)
  rw [Dat.before_out_kept _ 4 rfl t (by omega)
    (Bool.eq_false_iff.mpr fun h => by have := (flush0_4 _).mp h; dsimp only at this; omega)
    live4 (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 800000 in
/-- The body at any point: the inputs' buffers hold their blocks; the closed forms of the two conditions say which
    case the point is in; at a later point of a run the output's buffer holds what the point before left; so the case's
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3]
  rw [show (dats m 0 c).Φ t.succ = (dats m 0 c).Φ t.castSucc from rfl,
    show (dats m 0 c).owesAt () t.succ = (dats m 0 c).owesAt () t.castSucc from rfl,
    after_in0, after_in1, after_in2, after_in3, after_out]
  by_cases h0 : t.val % 56 = 0
  · rw [acc_first m c t h0]
    iintro ⟨HΦ, Ho, ⟨%d0, H0⟩, ⟨%d1, H1⟩, ⟨%d2, H2⟩, ⟨%d3, H3⟩, ⟨%d4, H4⟩⟩
    iapply (run_first c (grid0.coords t) _ _ _ _ _ _ _ _ _ _ ((hcond1 t).mpr h0) (fun h => (hcond2 t).mp h h0)
      (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [acc_next m c t h0]
    simp only [before_out_next m c t h0]
    iintro ⟨HΦ, Ho, ⟨%d0, H0⟩, ⟨%d1, H1⟩, ⟨%d2, H2⟩, ⟨%d3, H3⟩, ⟨%d4, H4⟩⟩
    iapply (run_next c (grid0.coords t) _ _ _ _ _ _ _ _ _ _ (fun h => h0 ((hcond1 t).mp h)) ((hcond2 t).mpr h0)
      (iblk m c 0 t) (iblk m c 1 t) (iblk m c 2 t) (iblk m c 3 t)
      (acc m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point: the windows one by one, the output window's "stores nothing
    here" alternative never arising (one of the two conditions holds at every point). -/
theorem body_obligation (c : Dev nD) : BodyObligation (dats (F := F) m 0 c) (defs₀ (F := F)) Variants.none () Set.univ := fun t => by
  rw [bigSep_W0, bigSep_W0, live4 (cfg0.grid.coords t)]
  show bodyPre m c t ⊢ wp frame (wpE (defs₀ (F := F)) Variants.none c none) Set.univ (bodyAt0 t) (fun _ => bodyPost m c t)
  exact sound_body m c t

/-! ## The run and the frame -/

set_option backward.isDefEq.respectTransparency.types false in
/-- At the compiled mesh, for any values, from any memory with zero counters: every weakly fair execution of @main on
    the TensorCores terminates, and every final state has every array of the pipeline at what the library computes
    from the proof data and every other unscoped buffer as the host lines after the region leave it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.MlpSpec.lean ====
/-
  The mathematics both programs compute, over the extended reals.

  For an activation matrix `X` (rows × 4096) and weights `W1`, `W3` (4096 × 14336), `W2` (14336 × 4096):
    gate X W r n = ∑ₖ X r k · W k n                       (a plain matrix product entry)
    hid r n      = act (gate X W1 r n) (gate X W3 r n)     with act g u = g · (1 / (1 + exp (0 − g))) · u
    out r c      = ∑ₙ hid r n · W2 n c.
  Arrays are read at natural-number coordinates (`at2`), so that block offsets are plain arithmetic.
  The constants 0 and 1 are kept as the float words the programs spell; nothing evaluates them.
-/
import Idealize.ShloMosaic.PureOps.Ideal
import Idealize.ShloMosaic.Lib.ValueIdx
import Mathlib.Algebra.BigOperators.Intervals

noncomputable section

namespace Cert.MlpSpec

open Idealize.ShloMosaic Idealize.ShloMosaic.ValueIdx Finset

/-- The word `0.0` and the word `1.0` at the ideal values. -/
abbrev zero : EReal := Ideal.ofBits .f32 0x00000000#32
abbrev one : EReal := Ideal.ofBits .f32 0x3F800000#32

/-- The gated activation of one entry: `g · (1 / (1 + exp (0 − g))) · u`, associated as both programs do. -/
def act (g u : EReal) : EReal := g * Ideal.div one (one + Ideal.exp (zero - g)) * u

/-- A two-axis array read at natural coordinates (zero outside the array). -/
def at2 {a b : Nat} (A : (⟨2, ![a, b]⟩ : Shape).Idx → EReal) (r c : ℕ) : EReal :=
  if h : r < a ∧ c < b then A (ix2 ⟨r, h.1⟩ ⟨c, h.2⟩) else 0

theorem at2_ix2 {a b : Nat} (A : (⟨2, ![a, b]⟩ : Shape).Idx → EReal) (p : Fin a) (q : Fin b) :
    at2 A p.val q.val = A (ix2 p q) := by
  unfold at2
  rw [dif_pos ⟨p.isLt, q.isLt⟩]

theorem at2_of_lt {a b : Nat} (A : (⟨2, ![a, b]⟩ : Shape).Idx → EReal) (r c : ℕ) (hr : r < a) (hc : c < b) :
    at2 A r c = A (ix2 ⟨r, hr⟩ ⟨c, hc⟩) := by
  unfold at2
  rw [dif_pos ⟨hr, hc⟩]

variable (X W1 W3 W2 : ℕ → ℕ → EReal)

/-- An entry of the product of `X` with a weight matrix over the 4096 hidden features. -/
def gate (W : ℕ → ℕ → EReal) (r n : ℕ) : EReal := ∑ k ∈ range 4096, X r k * W k n

/-- The gated hidden activation. -/
def hid (r n : ℕ) : EReal := act (gate X W1 r n) (gate X W3 r n)

/-- The down projection over the 14336 intermediate features. -/
def out (r c : ℕ) : EReal := ∑ n ∈ range 14336, hid X W1 W3 r n * W2 n c

end Cert.MlpSpec

end
-- ==== Proof.FusedBlock.lean ====
/-
  One grid point of the fused kernel, read at an entry.

  At a grid point the kernel holds a block `x` of 512 activation rows (all 4096 features), column blocks `w1`, `w3`
  of 256 intermediate features, and the matching 256 rows `w2` of the down projection. What it adds to the output
  block is, at entry `(p, c)`,
      ∑ₗ act (∑ₖ x p k · w1 k l) (∑ₖ x p k · w3 k l) · w2 l c,
  the three matrix products read as plain sums (at the ideal values a change of float format is the identity and a
  product into a zero accumulator is the bare sum). The later points add this to what the block already holds.
-/
import proofs.«103171_g2000707067673186_pallasbulk_507_3_alg».proof.Proof.Gen.KernelIdeal.Skeleton
import proofs.«103171_g2000707067673186_pallasbulk_507_3_alg».proof.Proof.LibDotSum
import proofs.«103171_g2000707067673186_pallasbulk_507_3_alg».proof.Proof.MlpSpec
import Idealize.ShloMosaic.PureOps.Ideal.Laws
import Idealize.ShloMosaic.Lib.Pipeline.Value

noncomputable section

namespace Cert.KernelIdeal.FusedBlock

open Idealize.ShloMosaic Idealize.ShloMosaic.ValueIdx Cert.KernelIdeal Cert.KernelIdeal.Gen Cert.MlpSpec

/-- The product of the row block with a 256-column block of a weight, at an entry. -/
theorem gate_apply (x : FVec Ideal S512x4096 .bf16) (w : FVec Ideal S4096x256 .bf16) (p : Fin 512) (l : Fin 256) :
    matmul dot_S512x4096_S4096x256_S512x256_1_0_0_1_n_n none x w (constant S512x256 .f32 0x00000000#32) (ix2 p l)
      = ∑ k : Fin 4096, x (ix2 p k) * w (ix2 k l) := by
  refine (Ideal.matmul_constant_zero_apply dot_S512x4096_S4096x256_S512x256_1_0_0_1_n_n none x w (ix2 p l)).trans ?_
  exact Cert.LibDotSum.sum_contr_eq_sum_fin dot_S512x4096_S4096x256_S512x256_1_0_0_1_n_n rfl rfl
    (fun _ _ => rfl) (fun _ _ => rfl) (fun _ _ => rfl) (fun _ _ => rfl) x w (ix2 p l)

/-- The product of the hidden block with the 256 rows of the down projection, at an entry. -/
theorem down_apply (h : FVec Ideal S512x256 .bf16) (w : FVec Ideal S256x4096 .bf16) (p : Fin 512) (c : Fin 4096) :
    matmul dot_S512x256_S256x4096_S512x4096_1_0_0_1_n_n none h w (constant S512x4096 .f32 0x00000000#32) (ix2 p c)
      = ∑ l : Fin 256, h (ix2 p l) * w (ix2 l c) := by
  refine (Ideal.matmul_constant_zero_apply dot_S512x256_S256x4096_S512x4096_1_0_0_1_n_n none h w (ix2 p c)).trans ?_
  exact Cert.LibDotSum.sum_contr_eq_sum_fin dot_S512x256_S256x4096_S512x4096_1_0_0_1_n_n rfl rfl
    (fun _ _ => rfl) (fun _ _ => rfl) (fun _ _ => rfl) (fun _ _ => rfl) h w (ix2 p c)

/-- What one grid point contributes, at an entry of the output block. -/
theorem contrib_apply (x : Vec Ideal S512x4096 .bf16) (w1 w3 : Vec Ideal S4096x256 .f32) (w2 : Vec Ideal S256x4096 .f32)
    (p : Fin 512) (c : Fin 4096) :
    k0_pay1 x w1 w3 w2 (ix2 p c)
      = ∑ l : Fin 256, act (∑ k : Fin 4096, x (ix2 p k) * w1 (ix2 k l)) (∑ k : Fin 4096, x (ix2 p k) * w3 (ix2 k l))
          * w2 (ix2 l c) := by
  unfold k0_pay1
  refine (down_apply _ _ p c).trans ?_
  refine Finset.sum_congr rfl fun l _ => ?_
  refine congrArg (· * w2 (ix2 l c)) ?_
  have e1 := gate_apply (shapeCast S512x4096 x Facts₀.shapeCasts_S512x4096_S512x4096) (truncf .bf16 w1 Facts₀.bitsLt_bf16_f32) p l
  have e3 := gate_apply (shapeCast S512x4096 x Facts₀.shapeCasts_S512x4096_S512x4096) (truncf .bf16 w3 Facts₀.bitsLt_bf16_f32) p l
  simp only [shapeCast_self] at e1 e3
  show act
    (matmul (F := Ideal) dot_S512x4096_S4096x256_S512x256_1_0_0_1_n_n none (shapeCast S512x4096 x Facts₀.shapeCasts_S512x4096_S512x4096)
      (truncf .bf16 w1 Facts₀.bitsLt_bf16_f32) (constant S512x256 .f32 0x00000000#32) (ix2 p l))
    (matmul (F := Ideal) dot_S512x4096_S4096x256_S512x256_1_0_0_1_n_n none (shapeCast S512x4096 x Facts₀.shapeCasts_S512x4096_S512x4096)
      (truncf .bf16 w3 Facts₀.bitsLt_bf16_f32) (constant S512x256 .f32 0x00000000#32) (ix2 p l)) = _
  simp only [shapeCast_self]
  rw [e1, e3]
  rfl

/-- A later point: the block's previous contents plus that point's contribution. -/
theorem step_apply (x : Vec Ideal S512x4096 .bf16) (w1 w3 : Vec Ideal S4096x256 .f32) (w2 : Vec Ideal S256x4096 .f32)
    (old : Vec Ideal S512x4096 .f32) (j : S512x4096.Idx) :
    k0_pay2 x w1 w3 w2 old j = old j + k0_pay1 x w1 w3 w2 j := by
  unfold k0_pay2
  show (shapeCast S512x4096 old _) j + _ = _
  rw [shapeCast_self]

end Cert.KernelIdeal.FusedBlock

end
-- ==== Proof.LibSumBlocks.lean ====
/-
  Sums over a range cut into consecutive blocks, and a running sum that adds one term per step.

  In a commutative additive monoid (the extended reals under `+` are one) a sum over `a * b` consecutive
  indices is the sum over `a` blocks of the sums inside each block of length `b`, and a value built by
  starting from `z + f 0` and adding `f (n + 1)` at each later step is `z` plus the sum of the terms met so far.
  Nothing here needs more than associativity and commutativity of `+`, so it holds at infinite values too.
-/
import Mathlib.Algebra.BigOperators.Intervals
import Mathlib.Algebra.BigOperators.Fin

namespace Cert.SumBlocks

open Finset

variable {M : Type*} [AddCommMonoid M]

/-- GENERAL LEMMA. A sum over `a * b` consecutive indices, block by block. -/
theorem sum_range_mul (f : ℕ → M) (a b : ℕ) :
    ∑ n ∈ range (a * b), f n = ∑ q ∈ range a, ∑ l ∈ range b, f (q * b + l) := by
  induction a with
  | zero => simp
  | succ a ih =>
    rw [Nat.succ_mul, sum_range_add, ih, sum_range_succ]

/-- The running sum: `z + f 0` after step `0`, one more term at each later step. -/
def run (z : M) (f : ℕ → M) : ℕ → M
  | 0 => z + f 0
  | n + 1 => run z f n + f (n + 1)

/-- The running sum after step `n` is `z` plus the first `n + 1` terms. -/
theorem run_eq (z : M) (f : ℕ → M) (n : ℕ) : run z f n = z + ∑ q ∈ range (n + 1), f q := by
  induction n with
  | zero => simp [run]
  | succ n ih => rw [run, ih, sum_range_succ _ (n + 1), add_assoc]

/-- The running sum that starts from its first term alone (no initial value). -/
def run' (f : ℕ → M) : ℕ → M
  | 0 => f 0
  | n + 1 => run' f n + f (n + 1)

theorem run'_eq (f : ℕ → M) (n : ℕ) : run' f n = ∑ q ∈ range (n + 1), f q := by
  induction n with
  | zero => simp [run']
  | succ n ih => rw [run', ih, sum_range_succ _ (n + 1)]

/-- A sum over `Fin n` of a function of the value is the sum over the range. -/
theorem sum_fin_eq_range (f : ℕ → M) (n : ℕ) : ∑ i : Fin n, f i.val = ∑ i ∈ range n, f i :=
  Fin.sum_univ_eq_sum_range f n

end Cert.SumBlocks
-- ==== Proof.FusedSum.lean ====
/-
  The fused kernel's output block, summed over a row block's 56 grid points.

  Grid point `t = 56·q + s` works on row block `q` (rows `512·q …`) and on the `s`-th group of 256 intermediate
  features. Its input blocks are read off the arrays at those offsets; its contribution at entry `(p, c)` is the part of
  the down projection over that group,
      ∑ₗ hid (512·q + p) (256·s + l) · W2 (256·s + l) c.
  The output block is set to the contribution at `s = 0` and has each later contribution added, so after `s = 55` it
  holds the sum over all 56 groups, which is the whole down projection `out (512·q + p) c` (a sum cut into blocks).
-/
import proofs.«103171_g2000707067673186_pallasbulk_507_3_alg».proof.Proof.Gen.KernelIdeal.Frame
import proofs.«103171_g2000707067673186_pallasbulk_507_3_alg».proof.Proof.FusedBlock
import proofs.«103171_g2000707067673186_pallasbulk_507_3_alg».proof.Proof.LibSumBlocks

set_option maxRecDepth 16384

noncomputable section

namespace Cert.KernelIdeal.FusedSum

open Idealize.ShloMosaic Idealize.ShloMosaic.TcCoe Idealize.ShloMosaic.ValueIdx Idealize.SL.Sem
open Cert.KernelIdeal Cert.KernelIdeal.Gen Cert.MlpSpec Cert.KernelIdeal.FusedBlock Finset

variable (m : (ℓ : Loc nD τ sig) → Buf (Elt Ideal) ℓ) (c : Dev nD)

/-- The four arrays the region reads, at natural coordinates. -/
abbrev X : ℕ → ℕ → EReal := at2 (V m c main_v1 : S2048x4096.Idx → EReal)
abbrev W1 : ℕ → ℕ → EReal := at2 (V m c main_arg1 : S4096x14336.Idx → EReal)
abbrev W3 : ℕ → ℕ → EReal := at2 (V m c main_arg2 : S4096x14336.Idx → EReal)
abbrev W2 : ℕ → ℕ → EReal := at2 (V m c main_arg3 : S14336x4096.Idx → EReal)

/-! ## Which blocks a grid point works on -/

theorem idx_x : ∀ t : Fin cfg0.N, win0_0.index t 0 = t.val / 56 ∧ win0_0.index t 1 = 0 :=
  (by decide +kernel : ∀ t : Fin grid0.N, win0_0.index t 0 = t.val / 56 ∧ win0_0.index t 1 = 0)
theorem idx_w1 : ∀ t : Fin cfg0.N, win0_1.index t 0 = 0 ∧ win0_1.index t 1 = t.val % 56 :=
  (by decide +kernel : ∀ t : Fin grid0.N, win0_1.index t 0 = 0 ∧ win0_1.index t 1 = t.val % 56)
theorem idx_w3 : ∀ t : Fin cfg0.N, win0_2.index t 0 = 0 ∧ win0_2.index t 1 = t.val % 56 :=
  (by decide +kernel : ∀ t : Fin grid0.N, win0_2.index t 0 = 0 ∧ win0_2.index t 1 = t.val % 56)
theorem idx_w2 : ∀ t : Fin cfg0.N, win0_3.index t 0 = t.val % 56 ∧ win0_3.index t 1 = 0 :=
  (by decide +kernel : ∀ t : Fin grid0.N, win0_3.index t 0 = t.val % 56 ∧ win0_3.index t 1 = 0)
theorem idx_y : ∀ t : Fin cfg0.N, win0_4.index t 0 = t.val / 56 ∧ win0_4.index t 1 = 0 :=
  (by decide +kernel : ∀ t : Fin grid0.N, win0_4.index t 0 = t.val / 56 ∧ win0_4.index t 1 = 0)

theorem N_eq : cfg0.N = 224 := N_0

/-! ## The input blocks, read off the arrays -/

theorem x_blk (t : Fin cfg0.N) (p : Fin 512) (k : Fin 4096) :
    (iblk m c 0 t : Vec Ideal S512x4096 .bf16) (ix2 p k) = X m c (t.val / 56 * 512 + p.val) k.val := by
  have hN : t.val < 224 := lt_of_lt_of_eq t.isLt N_eq
  have hr : t.val / 56 * 512 + p.val < 2048 := by have := p.isLt; omega
  refine Eq.trans ?_ (at2_of_lt _ _ _ hr k.isLt).symm
  unfold iblk
  rw [View.read_apply]
  show (V m c main_v1 : S2048x4096.Idx → EReal) (((cfg0.win 0).blk t).view.emb (ix2 p k)) = _
  refine congrArg _ ?_
  funext a
  apply Fin.ext
  match a with
  | ⟨0, _⟩ => show win0_0.index t 0 * 512 + 1 * p.val = t.val / 56 * 512 + p.val; rw [(idx_x t).1]; omega
  | ⟨1, _⟩ => show win0_0.index t 1 * 4096 + 1 * k.val = k.val; rw [(idx_x t).2]; omega

theorem w1_blk (t : Fin cfg0.N) (k : Fin 4096) (l : Fin 256) :
    (iblk m c 1 t : Vec Ideal S4096x256 .f32) (ix2 k l) = W1 m c k.val (t.val % 56 * 256 + l.val) := by
  have hc : t.val % 56 * 256 + l.val < 14336 := by have := l.isLt; omega
  refine Eq.trans ?_ (at2_of_lt _ _ _ k.isLt hc).symm
  unfold iblk
  rw [View.read_apply]
  show (V m c main_arg1 : S4096x14336.Idx → EReal) (((cfg0.win 1).blk t).view.emb (ix2 k l)) = _
  refine congrArg _ ?_
  funext a
  apply Fin.ext
  match a with
  | ⟨0, _⟩ => show win0_1.index t 0 * 4096 + 1 * k.val = k.val; rw [(idx_w1 t).1]; omega
  | ⟨1, _⟩ => show win0_1.index t 1 * 256 + 1 * l.val = t.val % 56 * 256 + l.val; rw [(idx_w1 t).2]; omega

theorem w3_blk (t : Fin cfg0.N) (k : Fin 4096) (l : Fin 256) :
    (iblk m c 2 t : Vec Ideal S4096x256 .f32) (ix2 k l) = W3 m c k.val (t.val % 56 * 256 + l.val) := by
  have hc : t.val % 56 * 256 + l.val < 14336 := by have := l.isLt; omega
  refine Eq.trans ?_ (at2_of_lt _ _ _ k.isLt hc).symm
  unfold iblk
  rw [View.read_apply]
  show (V m c main_arg2 : S4096x14336.Idx → EReal) (((cfg0.win 2).blk t).view.emb (ix2 k l)) = _
  refine congrArg _ ?_
  funext a
  apply Fin.ext
  match a with
  | ⟨0, _⟩ => show win0_2.index t 0 * 4096 + 1 * k.val = k.val; rw [(idx_w3 t).1]; omega
  | ⟨1, _⟩ => show win0_2.index t 1 * 256 + 1 * l.val = t.val % 56 * 256 + l.val; rw [(idx_w3 t).2]; omega

theorem w2_blk (t : Fin cfg0.N) (l : Fin 256) (q : Fin 4096) :
    (iblk m c 3 t : Vec Ideal S256x4096 .f32) (ix2 l q) = W2 m c (t.val % 56 * 256 + l.val) q.val := by
  have hr : t.val % 56 * 256 + l.val < 14336 := by have := l.isLt; omega
  refine Eq.trans ?_ (at2_of_lt _ _ _ hr q.isLt).symm
  unfold iblk
  rw [View.read_apply]
  show (V m c main_arg3 : S14336x4096.Idx → EReal) (((cfg0.win 3).blk t).view.emb (ix2 l q)) = _
  refine congrArg _ ?_
  funext a
  apply Fin.ext
  match a with
  | ⟨0, _⟩ => show win0_3.index t 0 * 256 + 1 * l.val = t.val % 56 * 256 + l.val; rw [(idx_w2 t).1]; omega
  | ⟨1, _⟩ => show win0_3.index t 1 * 4096 + 1 * q.val = q.val; rw [(idx_w2 t).2]; omega

/-! ## One point's contribution, over the arrays -/

/-- The contribution of grid point `t`, as a function of the entry. -/
def contrib (t : Fin cfg0.N) : Vec Ideal S512x4096 .f32 :=
  k0_pay1 (iblk m c 0 t) (iblk m c 1 t) (iblk m c 2 t) (iblk m c 3 t)

theorem contrib_at (t : Fin cfg0.N) (p : Fin 512) (q : Fin 4096) :
    contrib m c t (ix2 p q)
      = ∑ l ∈ range 256, hid (X m c) (W1 m c) (W3 m c) (t.val / 56 * 512 + p.val) (t.val % 56 * 256 + l)
          * W2 m c (t.val % 56 * 256 + l) q.val := by
  unfold contrib
  rw [contrib_apply]
  rw [← Fin.sum_univ_eq_sum_range (fun l => hid (X m c) (W1 m c) (W3 m c) (t.val / 56 * 512 + p.val) (t.val % 56 * 256 + l)
          * W2 m c (t.val % 56 * 256 + l) q.val) 256]
  refine Finset.sum_congr rfl fun l _ => ?_
  rw [w2_blk]
  refine congrArg (· * _) ?_
  unfold hid gate
  rw [← Fin.sum_univ_eq_sum_range (fun k => X m c (t.val / 56 * 512 + p.val) k * W1 m c k (t.val % 56 * 256 + l.val)) 4096,
    ← Fin.sum_univ_eq_sum_range (fun k => X m c (t.val / 56 * 512 + p.val) k * W3 m c k (t.val % 56 * 256 + l.val)) 4096]
  refine congrArg₂ act (Finset.sum_congr rfl fun k _ => ?_) (Finset.sum_congr rfl fun k _ => ?_)
  · rw [x_blk, w1_blk]
  · rw [x_blk, w3_blk]

/-! ## The running sum over a row block's points -/

/-- The contribution of point `n` at an entry, for every natural `n` (zero past the grid). -/
def addend (n : ℕ) (i : S512x4096.Idx) : EReal := if h : n < cfg0.N then contrib m c ⟨n, h⟩ i else 0

/-- A quantity that is the contribution at the first point of each run of 56 points and the previous value plus the
    contribution at the others is, at the last point of a run, the whole down projection. -/
theorem acc_last (acc : (n : ℕ) → n < cfg0.N → Vec Ideal S512x4096 .f32)
    (h_first : ∀ t : Fin cfg0.N, t.val % 56 = 0 → acc t.val t.isLt = k0_pay1 (iblk m c 0 t) (iblk m c 1 t) (iblk m c 2 t) (iblk m c 3 t))
    (h_next : ∀ t : Fin cfg0.N, ¬ t.val % 56 = 0 → acc t.val t.isLt
      = k0_pay2 (iblk m c 0 t) (iblk m c 1 t) (iblk m c 2 t) (iblk m c 3 t) (acc (t.val - 1) (Nat.lt_of_le_of_lt (Nat.sub_le _ _) t.isLt)))
    (t : Fin cfg0.N) (ht : t.val % 56 = 55) (p : Fin 512) (q : Fin 4096) :
    acc t.val t.isLt (ix2 p q) = out (X m c) (W1 m c) (W3 m c) (W2 m c) (t.val / 56 * 512 + p.val) q.val := by
  have hN : cfg0.N = 224 := N_eq
  have htN : t.val < 224 := lt_of_lt_of_eq t.isLt hN
  -- the run's fold
  have hfold := Pipeline.eq_accAt_of_mod (N := cfg0.N) acc 56
    (fun n h => contrib m c ⟨n, h⟩)
    (fun n h old => k0_pay2 (iblk m c 0 ⟨n, h⟩) (iblk m c 1 ⟨n, h⟩) (iblk m c 2 ⟨n, h⟩) (iblk m c 3 ⟨n, h⟩) old)
    (fun n h h0 => h_first ⟨n, h⟩ h0)
    (fun n h hne => h_next ⟨n + 1, h⟩ hne)
    (by norm_num) t.val t.isLt (by rw [Nat.div_add_mod]; exact t.isLt)
  rw [hfold]
  -- the fold unrolled at the entry
  have hun := Pipeline.accAt_add_apply (N := cfg0.N) (ι := S512x4096.Idx) (β := EReal)
    (fun n h => contrib m c ⟨n, h⟩)
    (fun n h old => k0_pay2 (iblk m c 0 ⟨n, h⟩) (iblk m c 1 ⟨n, h⟩) (iblk m c 2 ⟨n, h⟩) (iblk m c 3 ⟨n, h⟩) old)
    (fun _ => 0) (addend m c) (56 * (t.val / 56)) 55
    (fun h i => by unfold addend; rw [dif_pos h, zero_add])
    (fun n h old i _ _ => by unfold addend; rw [dif_pos h, step_apply]; rfl)
    (t.val % 56) (by omega) (by rw [Nat.div_add_mod]; exact t.isLt) (ix2 p q)
  rw [hun, zero_add, ht]
  -- each addend over the arrays, then the blocks joined
  unfold out
  rw [show (14336 : ℕ) = 56 * 256 from rfl, Cert.SumBlocks.sum_range_mul]
  refine Finset.sum_congr rfl fun s hs => ?_
  have hs56 : s < 56 := Finset.mem_range.mp hs
  have hlt : 56 * (t.val / 56) + s < cfg0.N := lt_of_lt_of_eq (by omega : 56 * (t.val / 56) + s < 224) hN.symm
  unfold addend
  rw [dif_pos hlt, contrib_at]
  have e1 : (56 * (t.val / 56) + s) / 56 = t.val / 56 := by omega
  have e2 : (56 * (t.val / 56) + s) % 56 = s := by omega
  show ∑ l ∈ range 256, hid _ _ _ ((56 * (t.val / 56) + s) / 56 * 512 + p.val) ((56 * (t.val / 56) + s) % 56 * 256 + l)
      * W2 m c ((56 * (t.val / 56) + s) % 56 * 256 + l) q.val = _
  rw [e1, e2]

end Cert.KernelIdeal.FusedSum

end
-- ==== Proof.MlpWhole.lean ====
/-
  The whole computation as one function of the four argument arrays.

  The activations (4 × 512 × 4096) are reshaped to 2048 rows; `out` is taken entry by entry; the 2048 × 4096 result is
  reshaped back. Both programs end holding this array.
-/
import proofs.«103171_g2000707067673186_pallasbulk_507_3_alg».proof.Proof.MlpSpec

noncomputable section

namespace Cert.MlpSpec

open Idealize.ShloMosaic Idealize.ShloMosaic.ValueIdx

/-- The whole computation on the argument arrays: the activations reshaped to 2048 rows, the down projection of the
    gated hidden activations, reshaped back to 4 × 512 × 4096. -/
def mlp (a0 : (⟨3, ![4, 512, 4096]⟩ : Shape).Idx → EReal) (a1 a2 : (⟨2, ![4096, 14336]⟩ : Shape).Idx → EReal)
    (a3 : (⟨2, ![14336, 4096]⟩ : Shape).Idx → EReal) : (⟨3, ![4, 512, 4096]⟩ : Shape).Idx → EReal :=
  shapeCast (⟨3, ![4, 512, 4096]⟩ : Shape)
    (fun i : (⟨2, ![2048, 4096]⟩ : Shape).Idx =>
      out (at2 (shapeCast (⟨2, ![2048, 4096]⟩ : Shape) a0 (by decide))) (at2 a1) (at2 a2) (at2 a3) (i 0).val (i 1).val)
    (by decide)

end Cert.MlpSpec

end
-- ==== Proof.FusedArray.lean ====
/-
  The fused kernel's result array.

  The output block of row block `q` is written back once, after the last of that row block's 56 grid points, when it
  holds the whole down projection of its 512 rows. The four row blocks tile the 2048 × 4096 result, so after the run
  the result array holds `out r c` at every entry, and the program's last line reshapes it to 4 × 512 × 4096.
  The activations the region reads are the argument reshaped to 2048 × 4096 (the change of float format before the
  region is the identity at the ideal values).
-/
import proofs.«103171_g2000707067673186_pallasbulk_507_3_alg».proof.Proof.MlpFrame
import proofs.«103171_g2000707067673186_pallasbulk_507_3_alg».proof.Proof.FusedSum
import proofs.«103171_g2000707067673186_pallasbulk_507_3_alg».proof.Proof.MlpWhole
import Idealize.ShloMosaic.Lib.StableHlo.Run

set_option maxRecDepth 16384

noncomputable section

namespace Cert.KernelIdeal.FusedArray

open Idealize.ShloMosaic Idealize.ShloMosaic.TcCoe Idealize.ShloMosaic.ValueIdx Idealize.SL.Sem
open Idealize.ShloMosaic.Pipeline (Dat)
open Cert.KernelIdeal Cert.KernelIdeal.Gen Cert.MlpSpec Cert.KernelIdeal.Body Cert.KernelIdeal.FusedSum

variable (m : (ℓ : Loc nD τ sig) → Buf (Elt Ideal) ℓ) (ρ : Dev nD → PrngReg)

/-- The whole down projection, as the 2048 × 4096 result array. -/
def Y (c : Dev nD) : S2048x4096.Idx → EReal :=
  fun i => out (X m c) (W1 m c) (W3 m c) (W2 m c) (i 0).val (i 1).val

/-- After the last point of a row block's run the output block holds that row block of `Y`. -/
theorem blk_eq (c : Dev nD) (t : Fin cfg0.N) (ht : t.val % 56 = 55) (j : S512x4096.Idx) :
    acc m c t.val t.isLt j = Y m c (((cfg0.win 4).blk t).view.emb j) := by
  obtain ⟨p, q, rfl⟩ : ∃ (p : Fin 512) (q : Fin 4096), j = ix2 p q := ⟨j 0, j 1, eq_ix2 j⟩
  rw [acc_last m c (acc m c) (acc_first m c) (acc_next m c) t ht p q]
  unfold Y
  have e0 : ((((cfg0.win 4).blk t).view.emb (ix2 p q)) 0).val = t.val / 56 * 512 + p.val := by
    show win0_4.index t 0 * 512 + 1 * p.val = _; rw [(idx_y t).1]; omega
  have e1 : ((((cfg0.win 4).blk t).view.emb (ix2 p q)) 1).val = q.val := by
    show win0_4.index t 1 * 4096 + 1 * q.val = _; rw [(idx_y t).2]; omega
  rw [e0, e1]

/-- What a write-back writes is its block of `Y`. -/
theorem flushed_eq (c : Dev nD) (t : Fin cfg0.N) (hf : (cfg0.win 4).flush t = true) :
    (dats m 0 c).flushed 4 t = ((cfg0.win 4).blk t).view.read (Elt Ideal) (Y m c) := by
  have ht : t.val % 56 = 55 := (flush0_4 t).mp hf
  show (cfg0.win 4).cut (grid0.coords t) ((dats m 0 c).after 4 t) = _
  rw [after_out]
  funext j
  exact blk_eq m c t ht j

/-- An entry of the result is in point `t`'s block iff each coordinate is in the block's range. -/
theorem mem_blk (t : Fin cfg0.N) (i : S2048x4096.Idx) :
    i ∈ ((cfg0.win 4).blk t).view.set ↔ ∀ a : Fin 2, win0_4.index t a * S512x4096.size a ≤ (i a).val
      ∧ (i a).val < win0_4.index t a * S512x4096.size a + S512x4096.size a := by
  show i ∈ ((View.whole main_v2).slice (win0_4.rect t)).set ↔ _
  rw [View.set_slice_whole, Rect.mem_set_unit]
  exact Iff.rfl

/-- Every entry of the result lies in the block some write-back writes: the last point of its row block's run. -/
theorem cover (i : S2048x4096.Idx) :
    ∃ t : Fin cfg0.N, (cfg0.win 4).flush t = true ∧ i ∈ ((cfg0.win 4).blk t).view.set := by
  have h0 : (i 0).val < 2048 := (i 0).isLt
  have h1 : (i 1).val < 4096 := (i 1).isLt
  have hlt : 56 * ((i 0).val / 512) + 55 < cfg0.N := lt_of_lt_of_eq (by omega : _ < 224) N_eq.symm
  have hx := idx_y ⟨56 * ((i 0).val / 512) + 55, hlt⟩
  refine ⟨⟨56 * ((i 0).val / 512) + 55, hlt⟩, (flush0_4 _).mpr (by show (56 * ((i 0).val / 512) + 55) % 56 = 55; omega), ?_⟩
  rw [mem_blk]
  intro a
  match a with
  | ⟨0, _⟩ =>
    show win0_4.index _ 0 * 512 ≤ (i 0).val ∧ (i 0).val < win0_4.index _ 0 * 512 + 512
    rw [hx.1]
    show (56 * ((i 0).val / 512) + 55) / 56 * 512 ≤ (i 0).val ∧ (i 0).val < (56 * ((i 0).val / 512) + 55) / 56 * 512 + 512
    omega
  | ⟨1, _⟩ =>
    show win0_4.index _ 1 * 4096 ≤ (i 1).val ∧ (i 1).val < win0_4.index _ 1 * 4096 + 4096
    rw [hx.2]
    omega

/-- The result array after the run. -/
theorem final (c : Dev nD) : (dats m 0 c).arrAt 4 cfg0.N = Y m c :=
  (dats m 0 c).arrAt_eq_of_cover 4 (Y m c) (flushed_eq m c) cover

/-- The program's result: `Y` reshaped to 4 × 512 × 4096. -/
def result (c : Dev nD) : Buf (Elt Ideal) ((c : Thread nD τ).loc main_v3) :=
  shapeCast S4x512x4096 (Y m c) Facts₀.shapeCasts_S2048x4096_S4x512x4096

/-- The line after the region reshapes the result array. -/
theorem tail_result (c : Dev nD) :
    Pipeline.afterTail₀ cfgs (dats m) 0 (V0 m) [hostOps1] c main_v3 = result m c := by
  unfold Pipeline.afterTail₀
  show StableHlo.after hostOps1 _ (Proc.devRef .tc main_v3) = _
  after_results
  have e := (Pipeline.withArrays_arr spec0 launch0.win.arr_inj c (V0 m c) (fun w => (dats m 0 c).arrAt w (cfgs 0).N) 4).trans (final m c)
  funext i
  show shapeCast S4x512x4096 (Pipeline.withArrays (cfgs 0).spec c (V0 m c) (fun w => (dats m 0 c).arrAt w (cfgs 0).N)
    (Proc.tc.devRef main_v2)) Facts₀.shapeCasts_S2048x4096_S4x512x4096 i = shapeCast S4x512x4096 (Y m c) Facts₀.shapeCasts_S2048x4096_S4x512x4096 i
  rw [e]

/-- The activations the region reads are the argument, reshaped. -/
theorem acts_eq (c : Dev nD) : (V m c main_v1 : S2048x4096.Idx → EReal)
    = shapeCast S2048x4096 (m ((c : Thread nD τ).loc main_arg0)) Facts₀.shapeCasts_S4x512x4096_S2048x4096 := by
  show StableHlo.after hostOps0 (fun b => m (c, b)) (Proc.devRef .tc main_v1) = _
  after_results
  rfl

/-- The result is the whole computation on the launch contents of the arguments. -/
theorem result_eq (c : Dev nD) : result m c
    = mlp (m ((c : Thread nD τ).loc main_arg0)) (m ((c : Thread nD τ).loc main_arg1)) (m ((c : Thread nD τ).loc main_arg2))
        (m ((c : Thread nD τ).loc main_arg3)) := by
  have hY : Y m c = fun i : S2048x4096.Idx =>
      out (at2 (shapeCast S2048x4096 (m ((c : Thread nD τ).loc main_arg0)) Facts₀.shapeCasts_S4x512x4096_S2048x4096))
        (at2 (m ((c : Thread nD τ).loc main_arg1) : S4096x14336.Idx → EReal)) (at2 (m ((c : Thread nD τ).loc main_arg2) : S4096x14336.Idx → EReal))
        (at2 (m ((c : Thread nD τ).loc main_arg3) : S14336x4096.Idx → EReal)) (i 0).val (i 1).val := by
    unfold Y
    show (fun i : S2048x4096.Idx => out (at2 (V m c main_v1 : S2048x4096.Idx → EReal)) (at2 (V m c main_arg1 : S4096x14336.Idx → EReal))
      (at2 (V m c main_arg2 : S4096x14336.Idx → EReal)) (at2 (V m c main_arg3 : S14336x4096.Idx → EReal)) (i 0).val (i 1).val) = _
    rw [acts_eq, V_main_arg1, V_main_arg2, V_main_arg3]
  unfold result
  rw [hY]
  rfl

/-- THE RUN, READ: the result buffer ends at the whole computation of the arguments, the arguments as launched. -/
theorem run : θ_run defs (onTc (τ := τ) (main (F := Ideal))) ⟨m, fun _ => 0, ρ⟩ (fun r => ∀ c : Dev nD,
      r.2.mem ((c.tc : Thread nD τ).loc main_v3)
        = mlp (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v3 (Pipeline.mem_restRefs_of main_v3 (by decide) (by decide))).trans ((tail_result m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.FusedArray

end
-- ==== Proof.GateUpPoints.lean ====
/- The gate/up region of the reference (the first tiled matmul pair, accumulated over the last grid axis):
   which grid points start an accumulation run, which end one, and where the output window is idle. -/
import proofs.«103171_g2000707067673186_pallasbulk_507_3_alg».proof.Proof.Gen.ReferenceIdeal.Launch
import proofs.«103171_g2000707067673186_pallasbulk_507_3_alg».proof.Proof.Gen.ReferenceIdeal.Skeleton
import proofs.«103171_g2000707067673186_pallasbulk_507_3_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! ## The body's two branch conditions, in closed form

The grid is 8 × 56 × 8 in row-major order, so the last coordinate of point `t` is `t mod 8`: the contraction index
`k`. The accumulators are zeroed where `k = 0` and the activation is written out where `k = 7`. -/

/-- The condition under which the accumulators are zeroed: the last coordinate is 0 (as the kernel computes it). -/
abbrev cond0_0 (i : grid0.Coords) : Prop :=
  (Scalar.cmpi .ne (Scalar.extui (Scalar.cmpi .eq (BitVec.ofNat 32 (i 2).val) 0#32)) 0#32) = 1#1
/-- It holds exactly at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition under which the output block is written: the last coordinate is 7. -/
abbrev cond0_1 (i : grid0.Coords) : Prop := k0_cond2 i = 1#1
/-- It holds exactly at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- The three inputs are never idle. -/
theorem liveAt0_0 (i : grid0.Coords) : cfg0.idle 0 i = false := rfl
theorem liveAt0_1 (i : grid0.Coords) : cfg0.idle 1 i = false := rfl
theorem liveAt0_2 (i : grid0.Coords) : cfg0.idle 2 i = false := rfl
/-- The output is idle wherever the contraction has not reached its last step, -/
theorem idleAt0_3 (i : grid0.Coords) (h : ¬cond0_1 i) : cfg0.idle 3 i = true := by
  show (!(k0_cond2 i == 1#1)) = true
  rw [Bool.not_eq_true', beq_eq_false_iff_ne]; exact h
/-- and live at the last step. -/
theorem liveAt0_3 (i : grid0.Coords) (h : cond0_1 i) : cfg0.idle 3 i = false := by
  show (!(k0_cond2 i == 1#1)) = false
  rw [show k0_cond2 i = 1#1 from h]; rfl
/-- Off the last step the output block is not written back. -/
theorem noFlush0_3 (t : Fin cfg0.N) (h : ¬t.val % 8 = 7) : (cfg0.win 3).flush t = false :=
  Bool.eq_false_iff.mpr fun h' => h ((flush0_3 t).mp h')

/-! ## The memrefs the body is called on -/

/-- Each window's current staging memref at point `t`, as the pipeline passes it, and its wholeness. -/
abbrev ms0_0 (t : Fin cfg0.N) : Memref sig .tc .vmem S256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x256 .f32 := win0_3.stage (cfg0.slots t 3)
abbrev hs0_3 (t : Fin cfg0.N) : (ms0_3 t).IsWhole := hstage0_3 ((cfg0.slots t 3).cast nbuf0_3)
/-- The two accumulators: whole scoped buffers of the kernel's own (gate, then up). -/
abbrev scM0_0 : Memref sig .tc .vmem S256x256 .f32 := Memref.whole cc0_scratch0
abbrev scM0_1 : Memref sig .tc .vmem S256x256 .f32 := Memref.whole cc0_scratch1

/-- The offsets `![0, 0]` are the zero offsets. -/
theorem off_zero : (![0, 0] : Fin 2 → Nat) = fun _ => 0 := by
  funext a; fin_cases a <;> rfl

end Cert.ReferenceIdeal.GateUp

end
-- ==== Proof.GateUpAccess.lean ====
/- Whole-block accesses of the gate/up kernel: every load and store of the body goes through the unit rectangle at
   zero offsets of the buffer's own extents, so a load reads the contents and a store leaves its payload. -/
import proofs.«103171_g2000707067673186_pallasbulk_507_3_alg».proof.Proof.GateUpPoints
import Idealize.ShloMosaic.Lib.Pipeline.Value

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-- A load of a whole 256×256 buffer reads its contents. -/
theorem readAt_whole_acc (v : View sig .tc .vmem S256x256 .f32) (f : v.ty.Contents (Elt F)) :
    View.readAt (Elt F) v (Rect.unit (s := S256x256) ![0, 0] S256x256.size inb_S256x256_S256x256_0_0).toLoadRect f = v.read (Elt F) f := by
  rw [View.readAt_eq_ld]; exact View.ld_unit_zero off_zero _ _

/-- A load of a whole 256×512 buffer (a block of the activations) reads its contents. -/
theorem readAt_whole_lhs (v : View sig .tc .vmem S256x512 .f32) (f : v.ty.Contents (Elt F)) :
    View.readAt (Elt F) v (Rect.unit (s := S256x512) ![0, 0] S256x512.size inb_S256x512_S256x512_0_0).toLoadRect f = v.read (Elt F) f := by
  rw [View.readAt_eq_ld]; exact View.ld_unit_zero off_zero _ _

/-- A load of a whole 512×256 buffer (a block of a weight matrix) reads its contents. -/
theorem readAt_whole_rhs (v : View sig .tc .vmem S512x256 .f32) (f : v.ty.Contents (Elt F)) :
    View.readAt (Elt F) v (Rect.unit (s := S512x256) ![0, 0] S512x256.size inb_S512x256_S512x256_0_0).toLoadRect f = v.read (Elt F) f := by
  rw [View.readAt_eq_ld]; exact View.ld_unit_zero off_zero _ _

/-- A whole-block store made LAST leaves its payload, whatever the earlier stores and the prior contents were. -/
theorem read_writes_whole_acc (v : View sig .tc .vmem S256x256 .f32) (f : v.ty.Contents (Elt F)) (w : Vec F S256x256 .f32)
    (L : List (View.Piece (Elt F) S256x256 .f32)) :
    v.read (Elt F) (v.writes (Elt F) f (⟨Rect.unit (s := S256x256) ![0, 0] S256x256.size inb_S256x256_S256x256_0_0, w⟩ :: L)) = w := by
  rw [View.read_writes_eq_canon _ _ _ (fun y => ⟨_, List.mem_cons_self, View.mem_set_unit_zero off_zero inb_S256x256_S256x256_0_0 y⟩),
    View.canon_cons_unit_zero off_zero]

end Cert.ReferenceIdeal.GateUp

end
-- ==== Proof.GateUpRunB.lean ====
/- The gate/up kernel's body at a middle step of an accumulation run, as one triple over whole buffers. -/
import proofs.«103171_g2000707067673186_pallasbulk_507_3_alg».proof.Proof.GateUpAccess

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option maxHeartbeats 1000000 in
/-- A MIDDLE step of an accumulation run (the last grid coordinate neither 0 nor 7): on whole buffers — the three input
    blocks at `x0`, `x1`, `x2`, the output block at `xi3`, the accumulators at `g` and `u` — the body adds the two block
    products into the accumulators and touches nothing else. -/
theorem kernelRun0_B (c : Dev nD) (i : grid0.Coords)
    (arg3 : Memref sig .tc .vmem S256x512 .f32) (harg3 : arg3.IsWhole) (arg4 : Memref sig .tc .vmem S512x256 .f32) (harg4 : arg4.IsWhole)
    (arg5 : Memref sig .tc .vmem S512x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (hc0 : ¬cond0_0 i) (hc1 : ¬cond0_1 i)
    (x0 : Vec F S256x512 .f32) (x1 : Vec F S512x256 .f32) (x2 : Vec F S512x256 .f32) (xi3 : Vec F S256x256 .f32)
    (g u : Vec F S256x256 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare g ∗ owns (c : Thread nD τ) arg8 fullShare u
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k0_pay4 x0 g x1) ∗ owns (c : Thread nD τ) arg8 fullShare (k0_pay5 x0 u x2)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  subst hf0; subst hf1; subst hf2; subst hf3; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    rw [read_writes_whole_acc, readAt_whole_lhs, readAt_whole_acc, readAt_whole_rhs]
  iexists _; isplitr
  swap; · iexact HS1
  ipureintro
  rw [read_writes_whole_acc, readAt_whole_lhs, readAt_whole_acc, readAt_whole_rhs]

end Cert.ReferenceIdeal.GateUp

end
-- ==== Proof.GateUpRunA.lean ====
/- The gate/up kernel's body at the first step of an accumulation run, as one triple over whole buffers. -/
import proofs.«103171_g2000707067673186_pallasbulk_507_3_alg».proof.Proof.GateUpRunB

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-- A whole-block load of an accumulator right after ONE whole-block store into it reads that store's payload. -/
theorem readCov_whole_acc (v : View sig .tc .vmem S256x256 .f32) (w : Vec F S256x256 .f32) :
    v.readCov [(⟨Rect.unit (s := S256x256) ![0, 0] S256x256.size inb_S256x256_S256x256_0_0, w⟩ : View.Piece (Elt F) S256x256 .f32)]
      (Rect.unit (s := S256x256) ![0, 0] S256x256.size inb_S256x256_S256x256_0_0).toLoadRect = w :=
  View.readCov_unit_zero v off_zero inb_S256x256_S256x256_0_0 w

set_option maxHeartbeats 1000000 in
/-- The FIRST step of an accumulation run (the last grid coordinate is 0): on whole buffers — the three input blocks at
    `x0`, `x1`, `x2`, the output block at `xi3`, the accumulators at anything — the body zeroes both accumulators and adds
    the two block products into them; the output block is untouched. -/
theorem kernelRun0_A (c : Dev nD) (i : grid0.Coords)
    (arg3 : Memref sig .tc .vmem S256x512 .f32) (harg3 : arg3.IsWhole) (arg4 : Memref sig .tc .vmem S512x256 .f32) (harg4 : arg4.IsWhole)
    (arg5 : Memref sig .tc .vmem S512x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (hc0 : cond0_0 i) (hc1 : ¬cond0_1 i)
    (x0 : Vec F S256x512 .f32) (x1 : Vec F S512x256 .f32) (x2 : Vec F S512x256 .f32) (xi3 : Vec F S256x256 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (k0_pay4 x0 k0_pay1 x1) ∗ owns (c : Thread nD τ) arg8 fullShare (k0_pay5 x0 k0_pay2 x2)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  subst hf0; subst hf1; subst hf2; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [HS0]
  · iexists _; isplitr
    swap; · iexact HS0
    ipureintro
    sl_unfold_run_names
    rw [read_writes_whole_acc, readCov_whole_acc, readAt_whole_lhs, readAt_whole_rhs]
  iexists _; isplitr
  swap; · iexact HS1
  ipureintro
  sl_unfold_run_names
  rw [read_writes_whole_acc, readCov_whole_acc, readAt_whole_lhs, readAt_whole_rhs]

end Cert.ReferenceIdeal.GateUp

end
-- ==== Proof.GateUpRunC.lean ====
/- The gate/up kernel's body at the last step of an accumulation run, as one triple over whole buffers. -/
import proofs.«103171_g2000707067673186_pallasbulk_507_3_alg».proof.Proof.GateUpRunA

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

set_option maxHeartbeats 1000000 in
/-- The LAST step of an accumulation run (the last grid coordinate is 7): on whole buffers — the three input blocks at
    `x0`, `x1`, `x2`, the output block at anything, the accumulators at `g` and `u` — the body adds the two block products
    into the accumulators and writes the gated activation of the finished sums into the output block. -/
theorem kernelRun0_C (c : Dev nD) (i : grid0.Coords)
    (arg3 : Memref sig .tc .vmem S256x512 .f32) (harg3 : arg3.IsWhole) (arg4 : Memref sig .tc .vmem S512x256 .f32) (harg4 : arg4.IsWhole)
    (arg5 : Memref sig .tc .vmem S512x256 .f32) (harg5 : arg5.IsWhole) (arg6 : Memref sig .tc .vmem S256x256 .f32) (harg6 : arg6.IsWhole)
    (arg7 : Memref sig .tc .vmem S256x256 .f32) (harg7 : arg7.IsWhole) (arg8 : Memref sig .tc .vmem S256x256 .f32) (harg8 : arg8.IsWhole)
    (hc0 : ¬cond0_0 i) (hc1 : cond0_1 i)
    (x0 : Vec F S256x512 .f32) (x1 : Vec F S512x256 .f32) (x2 : Vec F S512x256 .f32)
    (g u : Vec F S256x256 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare g ∗ owns (c : Thread nD τ) arg8 fullShare u
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay4 x0 g x1) (k0_pay5 x0 u x2))
            ∗ owns (c : Thread nD τ) arg7 fullShare (k0_pay4 x0 g x1) ∗ owns (c : Thread nD τ) arg8 fullShare (k0_pay5 x0 u x2)) -∗ K ⟨⟩))
      ⊢ wp frame (wpE (defs₀ (F := F)) Variants.none c none) E (cc0__gate_up_kernel i arg3 harg3 arg4 harg4 arg5 harg5 arg6 harg6 arg7 harg7 arg8 harg8) K := by
  simp only [cc0__gate_up_kernel_eq_skeleton]; unfold cc0__gate_up_kernel_skel
  unfold owns
  iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
  subst hf0; subst hf1; subst hf2; subst hfs0; subst hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_writes_whole_acc, readCov_whole_acc, readCov_whole_acc, readAt_whole_lhs, readAt_whole_acc, readAt_whole_acc, readAt_whole_rhs, readAt_whole_rhs]
  isplitl [HS0]
  · iexists _; isplitr
    swap; · iexact HS0
    ipureintro
    sl_unfold_run_names
    rw [read_writes_whole_acc, readAt_whole_lhs, readAt_whole_acc, readAt_whole_rhs]
  iexists _; isplitr
  swap; · iexact HS1
  ipureintro
  sl_unfold_run_names
  rw [read_writes_whole_acc, readAt_whole_lhs, readAt_whole_acc, readAt_whole_rhs]

end Cert.ReferenceIdeal.GateUp

end
-- ==== Proof.GateUpData.lean ====
/- The gate/up region of the reference as one pipeline: what its two accumulators hold after every grid point, the
   invariant that carries them from point to point, and the pipeline's proof data over the contents `V` the region is
   entered with. -/
import proofs.«103171_g2000707067673186_pallasbulk_507_3_alg».proof.Proof.GateUpAccess

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ
-- the TensorCore's buffer contents when the region is entered: everything below is stated at any such contents
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is `V`'s
    and whose body leaves the block in place: the window is fetched at every point, uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The accumulation

Within a run of eight consecutive points (one output block) the gate accumulator starts from zeros at the run's first
point and takes one block product `x·W1` more at each point; the up accumulator likewise with `x·W3`. -/

/-- The two accumulators (gate, up) after the body at position `n`. -/
def accAt0 (c : Dev nD) : (n : ℕ) → n < cfg0.N → Vec F S256x256 .f32 × Vec F S256x256 .f32
  | 0, hn => (k0_pay4 (iblk0 V c 0 ⟨0, hn⟩) k0_pay1 (iblk0 V c 1 ⟨0, hn⟩), k0_pay5 (iblk0 V c 0 ⟨0, hn⟩) k0_pay2 (iblk0 V c 2 ⟨0, hn⟩))
  | n + 1, hn =>
    if h0 : (n + 1) % 8 = 0 then
      (k0_pay4 (iblk0 V c 0 ⟨n + 1, hn⟩) k0_pay1 (iblk0 V c 1 ⟨n + 1, hn⟩), k0_pay5 (iblk0 V c 0 ⟨n + 1, hn⟩) k0_pay2 (iblk0 V c 2 ⟨n + 1, hn⟩))
    else
      (k0_pay4 (iblk0 V c 0 ⟨n + 1, hn⟩) (accAt0 c n (Nat.lt_of_succ_lt hn)).1 (iblk0 V c 1 ⟨n + 1, hn⟩),
       k0_pay5 (iblk0 V c 0 ⟨n + 1, hn⟩) (accAt0 c n (Nat.lt_of_succ_lt hn)).2 (iblk0 V c 2 ⟨n + 1, hn⟩))

/-- At the first point of a run: the block products added to zeros. -/
theorem accAt0_first (c : Dev nD) (t : Fin cfg0.N) (h : t.val % 8 = 0) :
    accAt0 V c t.val t.isLt = (k0_pay4 (iblk0 V c 0 t) k0_pay1 (iblk0 V c 1 t), k0_pay5 (iblk0 V c 0 t) k0_pay2 (iblk0 V c 2 t)) := by
  obtain ⟨n, hn⟩ := t
  cases n with
  | zero => exact rfl
  | succ n => exact (dif_pos h).trans rfl

/-- At any other point: the block products added to what the point before left. -/
theorem accAt0_next (c : Dev nD) (t : Fin cfg0.N) (h : ¬t.val % 8 = 0) :
    accAt0 V c t.val t.isLt
      = (k0_pay4 (iblk0 V c 0 t) (accAt0 V c (t.val - 1) (Nat.lt_of_le_of_lt (Nat.sub_le _ _) t.isLt)).1 (iblk0 V c 1 t),
         k0_pay5 (iblk0 V c 0 t) (accAt0 V c (t.val - 1) (Nat.lt_of_le_of_lt (Nat.sub_le _ _) t.isLt)).2 (iblk0 V c 2 t)) := by
  obtain ⟨n, hn⟩ := t
  cases n with
  | zero => exact absurd (Nat.zero_mod _) h
  | succ n => exact (dif_neg h).trans rfl

/-- The gate accumulator after the body at position `n`. -/
def gAt (c : Dev nD) (n : ℕ) (hn : n < cfg0.N) : Vec F S256x256 .f32 := (accAt0 V c n hn).1
/-- The up accumulator after the body at position `n`. -/
def uAt (c : Dev nD) (n : ℕ) (hn : n < cfg0.N) : Vec F S256x256 .f32 := (accAt0 V c n hn).2

theorem gAt_first (c : Dev nD) (t : Fin cfg0.N) (h : t.val % 8 = 0) :
    gAt V c t.val t.isLt = k0_pay4 (iblk0 V c 0 t) k0_pay1 (iblk0 V c 1 t) := by
  unfold gAt; rw [accAt0_first V c t h]
theorem gAt_next (c : Dev nD) (t : Fin cfg0.N) (h : ¬t.val % 8 = 0) :
    gAt V c t.val t.isLt = k0_pay4 (iblk0 V c 0 t) (gAt V c (t.val - 1) (Nat.lt_of_le_of_lt (Nat.sub_le _ _) t.isLt)) (iblk0 V c 1 t) := by
  unfold gAt; rw [accAt0_next V c t h]
theorem uAt_first (c : Dev nD) (t : Fin cfg0.N) (h : t.val % 8 = 0) :
    uAt V c t.val t.isLt = k0_pay5 (iblk0 V c 0 t) k0_pay2 (iblk0 V c 2 t) := by
  unfold uAt; rw [accAt0_first V c t h]
theorem uAt_next (c : Dev nD) (t : Fin cfg0.N) (h : ¬t.val % 8 = 0) :
    uAt V c t.val t.isLt = k0_pay5 (iblk0 V c 0 t) (uAt V c (t.val - 1) (Nat.lt_of_le_of_lt (Nat.sub_le _ _) t.isLt)) (iblk0 V c 2 t) := by
  unfold uAt; rw [accAt0_next V c t h]

/-! ## The invariant -/

/-- The core's scoped buffers that belong to the other region (its staging buffers and its accumulator), each whole at
    some contents: this region never touches them. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands the region, with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ restOther (F := F) c) ∗ (∃ r, prngReg c r)) := by
  unfold Pipeline.ΦA restOther; rw [scopedRest0_eq]; simp only [scM0_0, scM0_1, owns_whole]; try rfl

/-- The region invariant before position `n`: before the first point what the launch hands over (the accumulators at
    anything); afterwards the accumulators at what the point before left in them, the other region's scoped buffers at
    anything, and the generator register at some state. -/
def PhiS (c : Dev nD) : (n : ℕ) → n ≤ cfg0.N → sProp 𝕄
  | 0, _ => Pipeline.ΦA spec0 c
  | n + 1, hn => iprop(iprop(owns (c : Thread nD τ) scM0_0 fullShare (gAt V c n hn) ∗ owns (c : Thread nD τ) scM0_1 fullShare (uAt V c n hn) ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare (gAt V c n hn) ∗ owns (c : Thread nD τ) scM0_1 fullShare (uAt V c n hn) ∗ restOther (F := F) c) ∗ (∃ r, prngReg c r)) := rfl

theorem PhiS_pos (c : Dev nD) (n : ℕ) (h : n ≤ cfg0.N) (hz : n ≠ 0) :
    PhiS V c n h = iprop(iprop(owns (c : Thread nD τ) scM0_0 fullShare (gAt V c (n - 1) (by omega)) ∗ owns (c : Thread nD τ) scM0_1 fullShare (uAt V c (n - 1) (by omega)) ∗ restOther (F := F) c) ∗ (∃ r, prngReg c r)) := by
  cases n with
  | zero => exact absurd rfl hz
  | succ n => rfl

/-! ## The pipeline's proof data -/

/-- The proof data of the gate/up pipeline on core `c`: the arrays as the region finds them (`V`); after the body at
    point `t` each input's buffer at its block and the output's at the gated activation of the two accumulators there
    (consulted only at the last point of a run, where the block is written back); the invariant `PhiS`; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (gAt V c t.val t.isLt) (uAt V c t.val t.isLt)
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay6 (gAt V c t.val t.isLt) (uAt V c t.val t.isLt) := by dsimp only [dat0]

/-- At the last point of a run the output block holds the gated activation of the finished sums. -/
theorem after0_out (c : Dev nD) (t : Fin cfg0.N) (h : t.val % 8 = 7) :
    (dat0 V c).after 3 t = k0_pay6 (gAt V c t.val t.isLt) (uAt V c t.val t.isLt) := after0_3 V c t

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## Entering and leaving the region -/

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives back what the launch handed over: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hr⟩, Hg⟩
  isplitr [Hg]
  · isplitl [HS0]; · iexists _; iexact HS0
    isplitl [HS1]; · iexists _; iexact HS1
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 3584 := N_0; omega)

end Cert.ReferenceIdeal.GateUp

end
-- ==== Proof.GateUpFrame.lean ====
/- The gate/up region of the reference: the body obligation of its pipeline, at every grid point, from the three
   whole-body runs (first step of an accumulation run, middle step, last step). -/
import proofs.«103171_g2000707067673186_pallasbulk_507_3_alg».proof.Proof.GateUpRunC
import proofs.«103171_g2000707067673186_pallasbulk_507_3_alg».proof.Proof.GateUpData

set_option maxRecDepth 16384

noncomputable section

namespace Cert.ReferenceIdeal.GateUp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ
-- the TensorCore's buffer contents when the region is entered: everything below is stated at any such contents
variable (V : (c : Dev nD) → (b : Ref sig .tc) → Buf (Elt F) ((c : Thread nD τ).loc b))

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the closed forms say whether the point is the first
    of its run, a middle one or the last, and the matching run of the body applies: the invariant hands it the
    accumulators at what the point before left (at anything at the very first point, and at a run's first point they
    are overwritten anyway) and takes them back at this point's contents; the output block is handed back untouched off
    the last point of a run. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (ms0_0 t) fullShare ((dat0 V c).after 0 t) from by
      unfold Dat.leavesExact; rw [liveAt0_0 (grid0.coords t)], after0_0]
  rw [show (dat0 V c).leavesExact 1 t = owns (c : Thread nD τ) (ms0_1 t) fullShare ((dat0 V c).after 1 t) from by
      unfold Dat.leavesExact; rw [liveAt0_1 (grid0.coords t)], after0_1]
  rw [show (dat0 V c).leavesExact 2 t = owns (c : Thread nD τ) (ms0_2 t) fullShare ((dat0 V c).after 2 t) from by
      unfold Dat.leavesExact; rw [liveAt0_2 (grid0.coords t)], after0_2]
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dat0 V c) 3 t (idleAt0_3 _ hc1) (noFlush0_3 t h1)]
    rw [gAt_first V c t h0, uAt_first V c t h0]
    by_cases hz : t.val = 0
    · rw [PhiS_castSucc V c t, PhiS_zero V c _ _ hz, PhiA0_eq]
      iintro ⟨⟨⟨HS0, HS1, Hr⟩, Hg⟩, Ho, ⟨%d0, H0⟩, ⟨%d1, H1⟩, ⟨%d2, H2⟩, ⟨%d3, H3⟩⟩
      iapply (kernelRun0_A c (grid0.coords t) _ _ _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply (kernelRun0_A c (grid0.coords t) _ _ _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexists _; iexact H3
  · have hz : t.val ≠ 0 := fun hz => h0 (by rw [hz])
    have hc0 : ¬cond0_0 (grid0.coords t) := fun h => h0 ((hcond0_0 t).mp h)
    by_cases h1 : t.val % 8 = 7
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 _ hc1], after0_3]
      rw [gAt_next V c t h0, uAt_next V c t h0]
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply (kernelRun0_C c (grid0.coords t) _ _ _ _ _ _ _ _ _ _ _ _ hc0 hc1 (iblk0 V c 0 t) (iblk0 V c 1 t) (iblk0 V c 2 t) _ _ Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, H3, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 _ hc1) (noFlush0_3 t h1)]
      rw [gAt_next V c t h0, uAt_next V c t h0]
      rw [PhiS_castSucc V c t, PhiS_pos V c _ _ hz]
      iintro ⟨⟨⟨HS0, HS1, Hr⟩, Hg⟩, Ho, ⟨%d0, H0⟩, ⟨%d1, H1⟩, ⟨%d2, H2⟩, ⟨%d3, H3⟩⟩
      iapply (kernelRun0_B c (grid0.coords t) _ _ _ _ _ _ _ _ _ _ _ _ hc0 hc1 (iblk0 V c 0 t) (iblk0 V c 1 t) (iblk0 V c 2 t) _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitr [Hg]
        · isplitl [HS0]; · iexact HS0
          isplitl [HS1]; · iexact HS1
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body V c t

end Cert.ReferenceIdeal.GateUp

end
-- ==== Proof.DownPoints.lean ====
import proofs.«103171_g2000707067673186_pallasbulk_507_3_alg».proof.Proof.Gen.ReferenceIdeal.Launch
import proofs.«103171_g2000707067673186_pallasbulk_507_3_alg».proof.Proof.Gen.ReferenceIdeal.Skeleton
import proofs.«103171_g2000707067673186_pallasbulk_507_3_alg».proof.Proof.Gen.ReferenceIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The down projection's grid: where each conditional of the body fires

The grid is 8 × 16 × 28, walked with the last axis fastest, so a point's position modulo 28 is its
coordinate along the contraction axis. The body zeroes its accumulator where that coordinate is 0 and
copies the accumulator to the output block where it is 27. -/

/-- The condition under which the body zeroes the accumulator: the contraction coordinate is 0
    (the comparison chain the body computes, over the grid coordinates). -/
abbrev condFirst (i : grid1.Coords) : Prop :=
  (Scalar.cmpi .ne (Scalar.extui (Scalar.cmpi .eq (BitVec.ofNat 32 (i 2).val) 0#32)) 0#32) = 1#1

/-- It holds exactly at the positions ≡ 0 (mod 28): decided over the 3584 points. -/
theorem condFirst_iff : ∀ t : Fin cfg1.N, condFirst (grid1.coords t) ↔ t.val % 28 = 0 :=
  (by decide +kernel : ∀ t : Fin grid1.N, condFirst (grid1.coords t) ↔ t.val % 28 = 0)

/-- The condition under which the body copies the accumulator out: the contraction coordinate is 27. -/
abbrev condLast (i : grid1.Coords) : Prop := k1_cond2 i = 1#1

/-- It holds exactly at the positions ≡ 27 (mod 28): decided over the 3584 points. -/
theorem condLast_iff : ∀ t : Fin cfg1.N, condLast (grid1.coords t) ↔ t.val % 28 = 27 :=
  (by decide +kernel : ∀ t : Fin grid1.N, condLast (grid1.coords t) ↔ t.val % 28 = 27)

/-- The two input windows are never idle. -/
theorem live_in0 (t : Fin cfg1.N) : cfg1.idle 0 (grid1.coords t) = false := rfl
theorem live_in1 (t : Fin cfg1.N) : cfg1.idle 1 (grid1.coords t) = false := rfl

/-- The output window is idle exactly where the copy-out condition fails. -/
theorem idle_out (t : Fin cfg1.N) (h : ¬ condLast (grid1.coords t)) : cfg1.idle 2 (grid1.coords t) = true := by
  show (!(k1_cond2 (grid1.coords t) == 1#1)) = true
  simp only [Bool.not_eq_true', beq_eq_false_iff_ne, ne_eq]
  exact h

theorem live_out (t : Fin cfg1.N) (h : condLast (grid1.coords t)) : cfg1.idle 2 (grid1.coords t) = false := by
  show (!(k1_cond2 (grid1.coords t) == 1#1)) = false
  simp only [Bool.not_eq_false', beq_iff_eq]
  exact h

/-- Where the copy-out condition fails the pipeline does not write the output block back. -/
theorem noFlush_out (t : Fin cfg1.N) (h : ¬ condLast (grid1.coords t)) : (cfg1.win 2).flush t = false := by
  have h' : ¬ t.val % 28 = 27 := fun e => h ((condLast_iff t).mpr e)
  cases hf : (cfg1.win 2).flush t with
  | false => rfl
  | true => exact absurd ((flush1_2 t).mp hf) h'

/-- The grid has 3584 points. -/
theorem N_eq : cfg1.N = 3584 := N_1

end Cert.ReferenceIdeal.Down

end
-- ==== Proof.DownCases.lean ====
import proofs.«103171_g2000707067673186_pallasbulk_507_3_alg».proof.Proof.DownPoints

set_option maxRecDepth 16384

noncomputable section

namespace Cert.ReferenceIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The body of the down projection, run whole, in each of its three cases

Every access of the body is a load or a store of a WHOLE block (the unit rectangle at offsets 0, 0 of the
block's own extents). So after a store the buffer holds the stored value, and a load reads what the buffer holds.
With `acc` the accumulator's contents when the body starts, `x0` the (256 × 512) block of the left operand and
`x1` the (512 × 256) block of the right operand, the body leaves in the accumulator

  * `k1_pay2 k1_pay1 x0 x1` — zero plus the blocks' product — at the first point of a contraction run,
  * `k1_pay2 acc x0 x1`     — `acc` plus the blocks' product — at every other point,

and at the last point of a run it also copies that new value into the output block. -/

/-- The offsets of every access: zero along both axes. -/
theorem zeros2 : (![0, 0] : Fin 2 → Nat) = fun _ => 0 := by funext a; fin_cases a <;> rfl

section whole
variable {S : Shape} {e : EltTy}

/-- What a buffer reads after a whole-block store made last: the stored value, whatever was there before. -/
theorem read_after_store (v : View sig .tc .vmem S e) (f : v.ty.Contents (Elt F)) {off : Fin S.rank → Nat}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

end whole

set_option maxHeartbeats 1000000 in
/-- A point inside a contraction run (neither first nor last): the accumulator gains the blocks' product; the
    output block is handed back as it was found. -/
theorem run_mid (c : Dev nD) (i : grid1.Coords) (arg3 : Memref sig .tc .vmem S256x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S256x256 .f32) (harg6 : arg6.IsWhole)
    (hc0 : ¬ condFirst i) (hc1 : ¬ condLast i)
    (x0 : Vec F S256x512 .f32) (x1 : Vec F S512x256 .f32) (xi : Vec F S256x256 .f32) (acc : Vec F S256x256 .f32)
    (E : Set ℕ) (K : PUnit → sProp 𝕄) :
    iprop(owns (c : Thread nD τ) arg3 fullShare x0 ∗ owns (c : Thread nD τ) arg4 fullShare x1 ∗ owns (c : Thread nD τ) arg5 fullShare xi ∗ owns (c : Thread nD τ) arg6 fullShare acc
      ∗ (iprop(owns (c : Thread nD τ) arg3 fullShare x0 ∗ owns (c : Thread nD τ) arg4 fullShare x1 ∗ owns (c : Thread nD τ) arg5 fullShare xi ∗ owns (c : Thread nD τ) arg6 fullShare (k1_pay2 acc x0 x1)) -∗ K ⟨⟩))
    ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%fs, %hfs, HS⟩, Hk⟩
  obtain rfl := harg3.eq_unread hf0; obtain rfl := harg4.eq_unread hf1; obtain rfl := harg5.eq_unread hf2; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [read_after_store _ _ zeros2]
  simp only [View.readAt_eq_ld, harg3.read_unread, harg4.read_unread, harg6.read_unread, View.ld_unit_zero (S := S256x512) zeros2, View.ld_unit_zero (S := S512x256) zeros2, View.ld_unit_zero (S := S256x256) zeros2]

set_option maxHeartbeats 1000000 in
/-- The first point of a contraction run: the accumulator, whatever it held, is zeroed and then gains the blocks'
    product; the output block is handed back as it was found. -/
theorem run_first (c : Dev nD) (i : grid1.Coords) (arg3 : Memref sig .tc .vmem S256x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S256x256 .f32) (harg6 : arg6.IsWhole)
    (hc0 : condFirst i) (hc1 : ¬ condLast i)
    (x0 : Vec F S256x512 .f32) (x1 : Vec F S512x256 .f32) (xi : Vec F S256x256 .f32)
    (E : Set ℕ) (K : PUnit → sProp 𝕄) :
    iprop(owns (c : Thread nD τ) arg3 fullShare x0 ∗ owns (c : Thread nD τ) arg4 fullShare x1 ∗ owns (c : Thread nD τ) arg5 fullShare xi ∗ (∃ d, owns (c : Thread nD τ) arg6 fullShare d)
      ∗ (iprop(owns (c : Thread nD τ) arg3 fullShare x0 ∗ owns (c : Thread nD τ) arg4 fullShare x1 ∗ owns (c : Thread nD τ) arg5 fullShare xi ∗ owns (c : Thread nD τ) arg6 fullShare (k1_pay2 k1_pay1 x0 x1)) -∗ K ⟨⟩))
    ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%f2, %hf2, H2⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  iexists _; isplitr
  swap; · iexact HS
  ipureintro
  sl_unfold_words
  rw [read_after_store _ _ zeros2]
  simp only [View.readAt_eq_ld, harg3.read_unread, harg4.read_unread, harg6.read_unread, View.ld_unit_zero (S := S256x512) zeros2, View.ld_unit_zero (S := S512x256) zeros2, View.ld_unit_zero (S := S256x256) zeros2]
  exact congrArg (fun a => k1_pay2 a x0 x1) (View.readCov_unit_zero (S := S256x256) _ zeros2 _ _)

set_option maxHeartbeats 1000000 in
/-- The last point of a contraction run: the accumulator gains the blocks' product, and the output block,
    whatever it held, receives the accumulator's new value. -/
theorem run_last (c : Dev nD) (i : grid1.Coords) (arg3 : Memref sig .tc .vmem S256x512 .f32) (harg3 : arg3.IsWhole) (arg4 : Memref sig .tc .vmem S512x256 .f32) (harg4 : arg4.IsWhole) (arg5 : Memref sig .tc .vmem S256x256 .f32) (harg5 : arg5.IsWhole) (arg6 : Memref sig .tc .vmem S256x256 .f32) (harg6 : arg6.IsWhole)
    (hc0 : ¬ condFirst i) (hc1 : condLast i)
    (x0 : Vec F S256x512 .f32) (x1 : Vec F S512x256 .f32) (acc : Vec F S256x256 .f32)
    (E : Set ℕ) (K : PUnit → sProp 𝕄) :
    iprop(owns (c : Thread nD τ) arg3 fullShare x0 ∗ owns (c : Thread nD τ) arg4 fullShare x1 ∗ (∃ d, owns (c : Thread nD τ) arg5 fullShare d) ∗ owns (c : Thread nD τ) arg6 fullShare acc
      ∗ (iprop(owns (c : Thread nD τ) arg3 fullShare x0 ∗ owns (c : Thread nD τ) arg4 fullShare x1 ∗ owns (c : Thread nD τ) arg5 fullShare (k1_pay2 acc x0 x1) ∗ owns (c : Thread nD τ) arg6 fullShare (k1_pay2 acc x0 x1)) -∗ K ⟨⟩))
    ⊢ wp frame (wpE (defs₀ (F := F)) Variants.none c none) E (cc1__down_kernel i arg3 harg3 arg4 harg4 arg5 harg5 arg6 harg6) K := by
  simp only [cc1__down_kernel_eq_skeleton]; unfold cc1__down_kernel_skel
  unfold owns
  iintro ⟨⟨%f0, %hf0, H0⟩, ⟨%f1, %hf1, H1⟩, ⟨%d2, %f2, -, H2⟩, ⟨%fs, %hfs, HS⟩, Hk⟩
  obtain rfl := harg3.eq_unread hf0; obtain rfl := harg4.eq_unread hf1; obtain rfl := harg6.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr
    swap; · iexact H2
    ipureintro
    sl_unfold_words
    rw [read_after_store _ _ zeros2]
    simp only [View.readAt_eq_ld, harg3.read_unread, harg4.read_unread, harg6.read_unread, View.ld_unit_zero (S := S256x512) zeros2, View.ld_unit_zero (S := S512x256) zeros2, View.ld_unit_zero (S := S256x256) zeros2]
    exact View.readCov_unit_zero (S := S256x256) _ zeros2 _ _
  iexists _; isplitr
  swap; · iexact HS
  ipureintro
  sl_unfold_words
  rw [read_after_store _ _ zeros2]
  simp only [View.readAt_eq_ld, harg3.read_unread, harg4.read_unread, harg6.read_unread, View.ld_unit_zero (S := S256x512) zeros2, View.ld_unit_zero (S := S512x256) zeros2, View.ld_unit_zero (S := S256x256) zeros2]

end Cert.ReferenceIdeal.Down

end
-- ==== Proof.DownFrame.lean ====
import proofs.«103171_g2000707067673186_pallasbulk_507_3_alg».proof.Proof.DownCases

set_option maxRecDepth 16384

noncomputable section

namespace Cert.ReferenceIdeal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal.Gen

variable {F : FTy → Type} [FloatOps F]

local notation "𝕄" => MT nD τ sig Unit (Elt F) ℕ (UR sig nD τ) ℕ

/-! # The down projection as one region of a several-region run

Everything here is stated over `V`, the contents of the core's buffers when the region is entered.

The region walks an 8 × 16 × 28 grid, the last axis fastest. Along that axis (a CONTRACTION RUN of 28 points) the
body accumulates, in a scratch buffer it carries from point to point, the product of the left operand's
(256 × 512) block and the right operand's (512 × 256) block: `accAt n` names the accumulator after the body at
position `n`. At the last point of a run the body copies the accumulator into the output block, which the
pipeline then writes back. -/

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's staging buffer holds its block at every point, for any proof data whose array is `V`'s
    and whose body leaves the block in place. -/
theorem before_in0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand. -/
theorem before_in1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation -/

/-- The accumulator after the body at position `n`: at the first point of a contraction run, zero plus the
    product of that point's blocks; at any other point, what the point before left plus the product of this
    point's blocks. -/
def accAt (c : Dev nD) : (n : ℕ) → n < cfg1.N → Vec F S256x256 .f32
  | 0, hn => k1_pay2 k1_pay1 (iblk1 V c 0 ⟨0, hn⟩) (iblk1 V c 1 ⟨0, hn⟩)
  | n + 1, hn =>
    if (n + 1) % 28 = 0 then k1_pay2 k1_pay1 (iblk1 V c 0 ⟨n + 1, hn⟩) (iblk1 V c 1 ⟨n + 1, hn⟩)
    else k1_pay2 (accAt c n (Nat.lt_of_succ_lt hn)) (iblk1 V c 0 ⟨n + 1, hn⟩) (iblk1 V c 1 ⟨n + 1, hn⟩)

/-- At the first point of a contraction run the accumulation starts afresh. -/
theorem accAt_first (c : Dev nD) (t : Fin cfg1.N) (h : t.val % 28 = 0) :
    accAt V c t.val t.isLt = k1_pay2 k1_pay1 (iblk1 V c 0 t) (iblk1 V c 1 t) := by
  obtain ⟨n, hn⟩ := t
  cases n with
  | zero => rfl
  | succ n => exact if_pos h

/-- At any other point it continues from the point before. -/
theorem accAt_next (c : Dev nD) (t : Fin cfg1.N) (h : ¬ t.val % 28 = 0) :
    accAt V c t.val t.isLt
      = k1_pay2 (accAt V c (t.val - 1) (Nat.lt_of_le_of_lt (Nat.sub_le _ _) t.isLt)) (iblk1 V c 0 t) (iblk1 V c 1 t) := by
  obtain ⟨n, hn⟩ := t
  cases n with
  | zero => exact absurd (Nat.zero_mod _) h
  | succ n => exact if_neg h

/-! ## The region invariant: the accumulator, named -/

/-- The accumulator: a whole scoped buffer of the kernel's own, passed to the body beside the windows. -/
abbrev scM : Memref sig .tc .vmem S256x256 .f32 := Memref.whole cc1_scratch0

/-- The core's other scoped buffers that are no staging buffer of this region (the other region's staging
    buffers and accumulators), each at some contents: the body never touches them. -/
def others (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc0_stg3_0), ((c : Thread nD τ).loc cc0_stg3_0) ↦{fullShare} f)
      ∗ (∃ f : Buf (Elt F) ((c : Thread nD τ).loc cc0_stg3_1), ((c : Thread nD τ).loc cc0_stg3_1) ↦{fullShare} f)
      ∗ (∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f))

/-- What the launch hands the region splits into the other buffers, the accumulator at some contents, and the
    generator register at some state. -/
theorem PhiA_split (c : Dev nD) :
    (Pipeline.ΦA spec1 c : sProp 𝕄) ⊢ iprop(others (F := F) c ∗ (∃ d, owns (c : Thread nD τ) scM fullShare d) ∗ (∃ r, prngReg c r)) := by
  unfold Pipeline.ΦA others; rw [scopedRest1_eq]; simp only [scM, owns_whole]
  iintro ⟨⟨B0, B1, B2, B3, B4, B5, B6, B7, B8, B9, HS⟩, Hg⟩
  isplitl [B0 B1 B2 B3 B4 B5 B6 B7 B8 B9]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    iexact B9
  isplitl [HS]; · iexact HS
  iexact Hg

/-- And is put back from them. -/
theorem PhiA_join (c : Dev nD) :
    iprop(others (F := F) c ∗ (∃ d, owns (c : Thread nD τ) scM fullShare d) ∗ (∃ r, prngReg c r)) ⊢ (Pipeline.ΦA spec1 c : sProp 𝕄) := by
  unfold Pipeline.ΦA others; rw [scopedRest1_eq]; simp only [scM, owns_whole]
  iintro ⟨⟨B0, B1, B2, B3, B4, B5, B6, B7, B8, B9⟩, HS, Hg⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HS
  iexact Hg

/-- The region invariant before position `n`: before the first point, what the launch hands over (the
    accumulator at anything); afterwards the accumulator at what the point before left in it. -/
def PhiS (c : Dev nD) : (n : ℕ) → n ≤ cfg1.N → sProp 𝕄
  | 0, _ => Pipeline.ΦA spec1 c
  | n + 1, hn => iprop(others (F := F) c ∗ owns (c : Thread nD τ) scM fullShare (accAt V c n hn) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others (F := F) c ∗ owns (c : Thread nD τ) scM fullShare (accAt V c n hn) ∗ (∃ r, prngReg c r)) := rfl

theorem PhiS_pos (c : Dev nD) (n : ℕ) (h : n ≤ cfg1.N) (hz : n ≠ 0) :
    PhiS V c n h = iprop(others (F := F) c ∗ owns (c : Thread nD τ) scM fullShare (accAt V c (n - 1) (by omega)) ∗ (∃ r, prngReg c r)) := by
  cases n with
  | zero => exact absurd rfl hz
  | succ n => rfl

/-! ## The proof data -/

/-- The proof data of the region on core `c`: the arrays as the region finds them (`V`); after the body at point
    `t` each operand's buffer at its block and the output's at the accumulator's value there (which the output
    block receives at the last point of each contraction run, the only points that write it back); the invariant
    `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => accAt V c t.val t.isLt
  Φ t := PhiS V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = accAt V c t.val t.isLt := by dsimp only [dat1]

/-- What the pipeline writes back at the last point of a contraction run: the accumulator there. -/
theorem after1_out (c : Dev nD) (t : Fin cfg1.N) (h : t.val % 28 = 27) : (dat1 V c).after 2 t = accAt V c t.val t.isLt :=
  after1_2 V c t

theorem before1_0 (c : Dev nD) (t : Fin cfg1.N) (d) : (dat1 V c).before 0 t d = iblk1 V c 0 t :=
  before_in0_of V (dat1 V c) (A_eq1 V c 0) (after1_0 V c) t d
theorem before1_1 (c : Dev nD) (t : Fin cfg1.N) (d) : (dat1 V c).before 1 t d = iblk1 V c 1 t :=
  before_in1_of V (dat1 V c) (A_eq1 V c 1) (after1_1 V c) t d

/-! ## The body obligation, at a generic point -/

/-- Each window's current staging memref at point `t`, as the pipeline passes it to the body, and its wholeness. -/
abbrev ms0 (t : Fin cfg1.N) : Memref sig .tc .vmem S256x512 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S512x256 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S256x256 .f32 := win1_2.stage (cfg1.slots t 2)
abbrev hs2 (t : Fin cfg1.N) : (ms2 t).IsWhole := hstage1_2 ((cfg1.slots t 2).cast nbuf1_2)

/-- What the body is called with at point `t`, the windows one by one, -/
def bodyPre (c : Dev nD) (t : Fin cfg1.N) : sProp 𝕄 :=
  iprop((dat1 V c).Φ t.castSucc ∗ (dat1 V c).owesAt () t.castSucc
    ∗ (∃ d, owns (c : Thread nD τ) (ms0 t) fullShare ((dat1 V c).before 0 t d))
    ∗ (∃ d, owns (c : Thread nD τ) (ms1 t) fullShare ((dat1 V c).before 1 t d))
    ∗ (∃ d, owns (c : Thread nD τ) (ms2 t) fullShare ((dat1 V c).before 2 t d)))

/-- and what it returns. -/
def bodyPost (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The operands' buffers hold their blocks; the position modulo 28 says which of the three
    cases the point is in; the invariant hands the body the accumulator at what the point before left (at anything
    before the first point) and takes it back at this point's value; where the output is not stored its buffer goes
    back as it came; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms0 t) fullShare ((dat1 V c).after 0 t) from by
    unfold Dat.leavesExact; rw [live_in0 t], after1_0]
  rw [show (dat1 V c).leavesExact 1 t = owns (c : Thread nD τ) (ms1 t) fullShare ((dat1 V c).after 1 t) from by
    unfold Dat.leavesExact; rw [live_in1 t], after1_1]
  have hN : t.val < 3584 := lt_of_lt_of_eq t.isLt N_eq
  by_cases h0 : t.val % 28 = 0
  · have h1 : ¬ t.val % 28 = 27 := by omega
    have hc0 : condFirst (grid1.coords t) := (condFirst_iff t).mpr h0
    have hc1 : ¬ condLast (grid1.coords t) := fun h => h1 ((condLast_iff t).mp h)
    rw [Dat.leavesExact_idle (dat1 V c) 2 t (idle_out t hc1) (noFlush_out t hc1)]
    rw [accAt_first V c t h0]
    by_cases hz : t.val = 0
    · rw [PhiS_castSucc V c t, PhiS_zero V c _ _ hz]
      iintro ⟨HΦ, Ho, ⟨%d0, H0⟩, ⟨%d1, H1⟩, ⟨%d2, H2⟩⟩
      ihave HΦ' := (PhiA_split (F := F) c) $$ HΦ
      icases HΦ' with ⟨Hoth, HS, Hg⟩
      iapply (run_first c (grid1.coords t) (ms0 t) (hs0 t) (ms1 t) (hs1 t) (ms2 t) (hs2 t) scM (Memref.isWhole_whole _) hc0 hc1 (iblk1 V c 0 t) (iblk1 V c 1 t) _ Set.univ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2
    · rw [PhiS_castSucc V c t, PhiS_pos V c _ _ hz]
      iintro ⟨⟨Hoth, HS, Hg⟩, Ho, ⟨%d0, H0⟩, ⟨%d1, H1⟩, ⟨%d2, H2⟩⟩
      iapply (run_first c (grid1.coords t) (ms0 t) (hs0 t) (ms1 t) (hs1 t) (ms2 t) (hs2 t) scM (Memref.isWhole_whole _) hc0 hc1 (iblk1 V c 0 t) (iblk1 V c 1 t) _ Set.univ _)
      isplitl [H0]; · iexact H0
      isplitl [H1]; · iexact H1
      isplitl [H2]; · iexact H2
      isplitl [HS]; · iexists _; iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2
  · have hz : t.val ≠ 0 := fun e => h0 (by rw [e])
    have hc0 : ¬ condFirst (grid1.coords t) := fun h => h0 ((condFirst_iff t).mp h)
    by_cases h1 : t.val % 28 = 27
    · have hc1 : condLast (grid1.coords t) := (condLast_iff t).mpr h1
      rw [show (dat1 V c).leavesExact 2 t = owns (c : Thread nD τ) (ms2 t) fullShare ((dat1 V c).after 2 t) from by
        unfold Dat.leavesExact; rw [live_out t hc1], after1_2]
      rw [accAt_next V c t h0]
      rw [PhiS_castSucc V c t, PhiS_pos V c _ _ hz]
      iintro ⟨⟨Hoth, HS, Hg⟩, Ho, ⟨%d0, H0⟩, ⟨%d1, H1⟩, ⟨%d2, H2⟩⟩
      iapply (run_last c (grid1.coords t) (ms0 t) (hs0 t) (ms1 t) (hs1 t) (ms2 t) (hs2 t) scM (Memref.isWhole_whole _) hc0 hc1 (iblk1 V c 0 t) (iblk1 V c 1 t) _ Set.univ _)
      isplitl [H0]; · iexact H0
      isplitl [H1]; · iexact H1
      isplitl [H2]; · iexists _; iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexact H2
    · have hc1 : ¬ condLast (grid1.coords t) := fun h => h1 ((condLast_iff t).mp h)
      rw [Dat.leavesExact_idle (dat1 V c) 2 t (idle_out t hc1) (noFlush_out t hc1)]
      rw [accAt_next V c t h0]
      rw [PhiS_castSucc V c t, PhiS_pos V c _ _ hz]
      iintro ⟨⟨Hoth, HS, Hg⟩, Ho, ⟨%d0, H0⟩, ⟨%d1, H1⟩, ⟨%d2, H2⟩⟩
      iapply (run_mid c (grid1.coords t) (ms0 t) (hs0 t) (ms1 t) (hs1 t) (ms2 t) (hs2 t) scM (Memref.isWhole_whole _) hc0 hc1 (iblk1 V c 0 t) (iblk1 V c 1 t) _ _ Set.univ _)
      isplitl [H0]; · iexact H0
      isplitl [H1]; · iexact H1
      isplitl [H2]; · iexact H2
      isplitl [HS]; · iexact HS
      iintro ⟨H0, H1, H2, HS⟩
      isplitl [Hoth HS Hg]
      · isplitl [Hoth]; · iexact Hoth
        isplitl [HS]; · iexact HS
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]

/-- After any point the invariant gives back what the launch handed over: the accumulator's named contents are
    forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨Hoth, HS, Hg⟩
  iapply (PhiA_join (F := F) c)
  isplitl [Hoth]; · iexact Hoth
  isplitl [HS]; · iexists _; iexact HS
  iexact Hg

/-- The same after the last point. -/
theorem hout1 (c : Dev nD) : (dat1 V c).Φ (Fin.last cfg1.N) ⊢ Pipeline.ΦA spec1 c :=
  Phi_out V c _ (by rw [Fin.val_last]; have : cfg1.N = 3584 := N_eq; omega)

end Cert.ReferenceIdeal.Down

end
-- ==== Proof.TiledRun.lean ====
/-
  The reference program's run: a reshape, the gate/up region, the down region, a reshape.

  Between two items of @main every unscoped buffer of the core is held whole at a known valuation: the launch contents,
  then after the first reshape, then with the first region's output array at what its write-backs leave, then likewise
  after the second region, then after the last reshape. Each region takes its arrays out of that state, runs its grid
  against its proof data, and puts the arrays back; the generator register and the (empty) dues ride along. At the end
  the last valuation is read against the final memory, which gives every unscoped buffer's final contents — the
  arguments as launched, and the result.
-/
import proofs.«103171_g2000707067673186_pallasbulk_507_3_alg».proof.Proof.GateUpFrame
import proofs.«103171_g2000707067673186_pallasbulk_507_3_alg».proof.Proof.DownFrame
import proofs.«103171_g2000707067673186_pallasbulk_507_3_alg».proof.Proof.Gen.ReferenceIdeal.Launch
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.ReferenceIdeal.TiledRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first reshape (the gate/up region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the gate/up region's exit: its arrays at what the pipeline leaves, every other buffer as entered. -/
def W2 (c : Dev nD) : Valuation τ sig (Elt F) :=
  Pipeline.withArrays spec0 c (W1 m ρ c) fun w => (GateUp.dat0 (V1 m ρ) c).arrAt w cfg0.N
theorem W2_arr (c : Dev nD) (w : Fin cfg0.W) :
    W2 m ρ c (Proc.devRef .tc (Pipeline.arrRef spec0 w)) = (GateUp.dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (GateUp.dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the down region's exit. -/
def W3 (c : Dev nD) : Valuation τ sig (Elt F) :=
  Pipeline.withArrays spec1 c (W2 m ρ c) fun w => (Down.dat1 (V2 m ρ) c).arrAt w cfg1.N
theorem W3_arr (c : Dev nD) (w : Fin cfg1.W) :
    W3 m ρ c (Proc.devRef .tc (Pipeline.arrRef spec1 w)) = (Down.dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Down.dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last reshape. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => GateUp.dat0 (V1 m ρ) c
  | ⟨1, _⟩ => fun c => Down.dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The gate/up region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (GateUp.body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun w => GateUp.A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := GateUp.hin0 (V1 m ρ) c
    unfold Pipeline.ΦA at h
    rw [show (pdats m ρ 0 c).Φ 0 = (GateUp.dat0 (V1 m ρ) c).Φ 0 from rfl]
    iintro ⟨Hp, -, Hr⟩
    iapply h
    isplitl [Hr]; · iexact Hr
    iexact Hp
  hout c := by
    rw [Pipeline.ownSems0_none]
    have h := GateUp.hout0 (V1 m ρ) c
    unfold Pipeline.ΦA at h
    rw [show (pdats m ρ 0 c).Φ (Fin.last _) = (GateUp.dat0 (V1 m ρ) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The down region: entered from every unscoped buffer at `W2`, left at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Down.body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun w => Down.A_eq1 (V2 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Down.hin1 (V2 m ρ) c
    unfold Pipeline.ΦA at h
    rw [show (pdats m ρ 1 c).Φ 0 = (Down.dat1 (V2 m ρ) c).Φ 0 from rfl]
    iintro ⟨Hp, -, Hr⟩
    iapply h
    isplitl [Hr]; · iexact Hr
    iexact Hp
  hout c := by
    rw [Pipeline.ownSems0_none]
    have h := Down.hout1 (V2 m ρ) c
    unfold Pipeline.ΦA at h
    rw [show (pdats m ρ 1 c).Φ (Fin.last _) = (Down.dat1 (V2 m ρ) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting,
    and every final state has every unscoped buffer of every core at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

end Cert.ReferenceIdeal.TiledRun

end
-- ==== Proof.TiledBlock.lean ====
/-
  One grid point of the reference's two tiled kernels, read at an entry.

  Both reference kernels accumulate a matrix product tile by tile: at a grid point they hold a 256 × 512 block `x`
  of the left operand and a 512 × 256 block `w` of the right one and replace the 256 × 256 accumulator `old` by
      old p q + ∑ₗ x p l · w l q,
  starting from the zero word at the first tile of a run. The first kernel keeps two such accumulators (gate and up)
  and, after the last tile, stores `act gate up` entry by entry; the second stores its accumulator.
-/
import proofs.«103171_g2000707067673186_pallasbulk_507_3_alg».proof.Proof.Gen.ReferenceIdeal.Skeleton
import proofs.«103171_g2000707067673186_pallasbulk_507_3_alg».proof.Proof.LibDotSum
import proofs.«103171_g2000707067673186_pallasbulk_507_3_alg».proof.Proof.MlpSpec
import Idealize.ShloMosaic.PureOps.Ideal.Laws
import Idealize.ShloMosaic.Lib.Pipeline.Value

noncomputable section

namespace Cert.ReferenceIdeal.TiledBlock

open Idealize.ShloMosaic Idealize.ShloMosaic.ValueIdx Cert.ReferenceIdeal Cert.ReferenceIdeal.Gen Cert.MlpSpec

/-- The product of a 256 × 512 block with a 512 × 256 block, at an entry. -/
theorem tile_apply (x : FVec Ideal S256x512 .f32) (w : FVec Ideal S512x256 .f32) (p q : Fin 256) :
    matmul dot_S256x512_S512x256_S256x256_1_0_0_1_n_n none x w (constant S256x256 .f32 0x00000000#32) (ix2 p q)
      = ∑ l : Fin 512, x (ix2 p l) * w (ix2 l q) := by
  refine (Ideal.matmul_constant_zero_apply dot_S256x512_S512x256_S256x256_1_0_0_1_n_n none x w (ix2 p q)).trans ?_
  exact Cert.LibDotSum.sum_contr_eq_sum_fin dot_S256x512_S512x256_S256x256_1_0_0_1_n_n rfl rfl
    (fun _ _ => rfl) (fun _ _ => rfl) (fun _ _ => rfl) (fun _ _ => rfl) x w (ix2 p q)

/-- The zero blocks the first tile of a run starts from. -/
theorem gate_zero (j : S256x256.Idx) : (k0_pay1 (F := Ideal)) j = zero := by
  unfold k0_pay1; rw [shapeCast_self]; rfl
theorem up_zero (j : S256x256.Idx) : (k0_pay2 (F := Ideal)) j = zero := by
  unfold k0_pay2; rw [shapeCast_self]; rfl
theorem down_zero (j : S256x256.Idx) : (k1_pay1 (F := Ideal)) j = zero := by
  unfold k1_pay1; rw [shapeCast_self]; rfl

/-- The gate accumulator after a tile. -/
theorem gate_step (x : Vec Ideal S256x512 .f32) (old : Vec Ideal S256x256 .f32) (w : Vec Ideal S512x256 .f32) (p q : Fin 256) :
    k0_pay4 x old w (ix2 p q) = old (ix2 p q) + ∑ l : Fin 512, x (ix2 p l) * w (ix2 l q) := by
  have e := tile_apply (shapeCast S256x512 x Facts₀.shapeCasts_S256x512_S256x512) w p q
  simp only [shapeCast_self] at e
  unfold k0_pay4 k0_pay3
  rw [shapeCast_self]
  show old (ix2 p q) + matmul (F := Ideal) dot_S256x512_S512x256_S256x256_1_0_0_1_n_n none
      (shapeCast S256x512 x Facts₀.shapeCasts_S256x512_S256x512) w (constant S256x256 .f32 0x00000000#32) (ix2 p q) = _
  simp only [shapeCast_self]
  rw [e]

/-- The up accumulator after a tile. -/
theorem up_step (x : Vec Ideal S256x512 .f32) (old : Vec Ideal S256x256 .f32) (w : Vec Ideal S512x256 .f32) (p q : Fin 256) :
    k0_pay5 x old w (ix2 p q) = old (ix2 p q) + ∑ l : Fin 512, x (ix2 p l) * w (ix2 l q) := by
  have e := tile_apply (shapeCast S256x512 x Facts₀.shapeCasts_S256x512_S256x512) w p q
  simp only [shapeCast_self] at e
  unfold k0_pay5 k0_pay3
  rw [shapeCast_self]
  show old (ix2 p q) + matmul (F := Ideal) dot_S256x512_S512x256_S256x256_1_0_0_1_n_n none
      (shapeCast S256x512 x Facts₀.shapeCasts_S256x512_S256x512) w (constant S256x256 .f32 0x00000000#32) (ix2 p q) = _
  simp only [shapeCast_self]
  rw [e]

/-- What the first kernel stores after the last tile. -/
theorem hidden_apply (g u : Vec Ideal S256x256 .f32) (j : S256x256.Idx) : k0_pay6 g u j = act (g j) (u j) := rfl

/-- The down accumulator after a tile. -/
theorem down_step (old : Vec Ideal S256x256 .f32) (x : Vec Ideal S256x512 .f32) (w : Vec Ideal S512x256 .f32) (p q : Fin 256) :
    k1_pay2 old x w (ix2 p q) = old (ix2 p q) + ∑ l : Fin 512, x (ix2 p l) * w (ix2 l q) := by
  have e := tile_apply (shapeCast S256x512 x Facts₀.shapeCasts_S256x512_S256x512) w p q
  simp only [shapeCast_self] at e
  unfold k1_pay2
  rw [shapeCast_self]
  show old (ix2 p q) + matmul (F := Ideal) dot_S256x512_S512x256_S256x256_1_0_0_1_n_n none
      (shapeCast S256x512 x Facts₀.shapeCasts_S256x512_S256x512) w (constant S256x256 .f32 0x00000000#32) (ix2 p q) = _
  simp only [shapeCast_self]
  rw [e]

end Cert.ReferenceIdeal.TiledBlock

end
-- ==== Proof.TiledIndex.lean ====
/-
  Which blocks each grid point of the reference's two tiled kernels works on.

  The first kernel's grid is 8 × 56 × 8 (row tile, column tile, reduction tile), the second's 8 × 16 × 28; a point's
  linear position `t` has row tile `t / 448` in both, and the other two coordinates are its remainders. Each fact is
  checked point by point over the 3584 points of a grid.
-/
import proofs.«103171_g2000707067673186_pallasbulk_507_3_alg».proof.Proof.Gen.ReferenceIdeal

noncomputable section

namespace Cert.ReferenceIdeal.TiledIndex

open Idealize.ShloMosaic Cert.ReferenceIdeal Cert.ReferenceIdeal.Gen

theorem N0_eq : cfg0.N = 3584 := by decide
theorem N1_eq : cfg1.N = 3584 := by decide

/-- First kernel: the activation block is (row tile, reduction tile). -/
theorem idx0_x : ∀ t : Fin cfg0.N, win0_0.index t 0 = t.val / 448 ∧ win0_0.index t 1 = t.val % 8 :=
  (by decide +kernel : ∀ t : Fin grid0.N, win0_0.index t 0 = t.val / 448 ∧ win0_0.index t 1 = t.val % 8)
/-- First kernel: the gate weight block is (reduction tile, column tile). -/
theorem idx0_w1 : ∀ t : Fin cfg0.N, win0_1.index t 0 = t.val % 8 ∧ win0_1.index t 1 = t.val / 8 % 56 :=
  (by decide +kernel : ∀ t : Fin grid0.N, win0_1.index t 0 = t.val % 8 ∧ win0_1.index t 1 = t.val / 8 % 56)
/-- First kernel: the up weight block likewise. -/
theorem idx0_w3 : ∀ t : Fin cfg0.N, win0_2.index t 0 = t.val % 8 ∧ win0_2.index t 1 = t.val / 8 % 56 :=
  (by decide +kernel : ∀ t : Fin grid0.N, win0_2.index t 0 = t.val % 8 ∧ win0_2.index t 1 = t.val / 8 % 56)
/-- First kernel: the output block is (row tile, column tile). -/
theorem idx0_h : ∀ t : Fin cfg0.N, win0_3.index t 0 = t.val / 448 ∧ win0_3.index t 1 = t.val / 8 % 56 :=
  (by decide +kernel : ∀ t : Fin grid0.N, win0_3.index t 0 = t.val / 448 ∧ win0_3.index t 1 = t.val / 8 % 56)

/-- Second kernel: the hidden block is (row tile, reduction tile). -/
theorem idx1_h : ∀ t : Fin cfg1.N, win1_0.index t 0 = t.val / 448 ∧ win1_0.index t 1 = t.val % 28 :=
  (by decide +kernel : ∀ t : Fin grid1.N, win1_0.index t 0 = t.val / 448 ∧ win1_0.index t 1 = t.val % 28)
/-- Second kernel: the down weight block is (reduction tile, column tile). -/
theorem idx1_w2 : ∀ t : Fin cfg1.N, win1_1.index t 0 = t.val % 28 ∧ win1_1.index t 1 = t.val / 28 % 16 :=
  (by decide +kernel : ∀ t : Fin grid1.N, win1_1.index t 0 = t.val % 28 ∧ win1_1.index t 1 = t.val / 28 % 16)
/-- Second kernel: the output block is (row tile, column tile). -/
theorem idx1_y : ∀ t : Fin cfg1.N, win1_2.index t 0 = t.val / 448 ∧ win1_2.index t 1 = t.val / 28 % 16 :=
  (by decide +kernel : ∀ t : Fin grid1.N, win1_2.index t 0 = t.val / 448 ∧ win1_2.index t 1 = t.val / 28 % 16)

end Cert.ReferenceIdeal.TiledIndex

end
-- ==== Proof.LibTileSum.lean ====
/-
  An accumulator carried over a run of consecutive grid points.

  A point-indexed quantity that starts from `z` plus the point's term at the first point of each run of `J` points and
  adds the point's term to its previous value at every other point holds, at offset `j` in a run, `z` plus the terms
  of the run's first `j + 1` points. Only associativity of `+` is used.
-/
import Mathlib.Algebra.BigOperators.Intervals

namespace Cert.TileSum

open Finset

variable {M : Type*} [AddCommMonoid M] {ι : Type*} {N : ℕ}

/-- GENERAL LEMMA. At offset `j` of the run starting at `J * q` the accumulator holds `z` plus the run's first `j + 1` terms. -/
theorem run_at (J : ℕ) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (q : ℕ) (i : ι) : ∀ (j : ℕ), j < J → ∀ (h : J * q + j < N), acc (J * q + j) h i = z + ∑ s ∈ range (j + 1), term (J * q + s) i
  | 0, _, h => by
    rw [h_first _ h (by rw [Nat.add_zero, Nat.mul_mod_right]) i, sum_range_one]
  | j + 1, hj, h => by
    have hne : ¬ (J * q + j + 1) % J = 0 := by
      rw [Nat.add_assoc, Nat.mul_add_mod, Nat.mod_eq_of_lt hj]; exact Nat.succ_ne_zero j
    have hs := h_next (J * q + j) h hne i
    refine hs.trans ?_
    rw [run_at J z acc term h_first h_next q i j (Nat.lt_of_succ_lt hj) (Nat.lt_of_succ_lt h),
      sum_range_succ _ (j + 1), add_assoc]
    rfl

/-- GENERAL LEMMA. At the last point of its run the accumulator holds `z` plus the whole run's terms. -/
theorem run_last (J : ℕ) (hJ : 0 < J) (z : M) (acc : (n : ℕ) → n < N → ι → M) (term : ℕ → ι → M)
    (h_first : ∀ (n : ℕ) (h : n < N), n % J = 0 → ∀ i, acc n h i = z + term n i)
    (h_next : ∀ (n : ℕ) (h : n + 1 < N), ¬ (n + 1) % J = 0 → ∀ i, acc (n + 1) h i = acc n (Nat.lt_of_succ_lt h) i + term (n + 1) i)
    (t : ℕ) (ht : t < N) (hlast : t % J = J - 1) (i : ι) :
    acc t ht i = z + ∑ s ∈ range J, term (J * (t / J) + s) i := by
  have same : ∀ (u : ℕ) (hu : u < N), u = t → acc u hu i = acc t ht i := fun u hu e => by subst e; rfl
  have h' : J * (t / J) + t % J < N := by rw [Nat.div_add_mod]; exact ht
  rw [← same _ h' (Nat.div_add_mod t J), run_at J z acc term h_first h_next (t / J) i (t % J) (Nat.mod_lt t hJ) h', hlast,
    Nat.sub_add_cancel hJ]

end Cert.TileSum
-- ==== Proof.TiledSum.lean ====
/-
  The reference's accumulators, summed over a run of reduction tiles.

  First kernel, grid point `t`: row tile `t / 448`, column tile `t / 8 % 56`, reduction tile `t % 8`. The gate
  accumulator starts from the zero word at reduction tile 0 and gains `∑ₗ X r (512·s + l) · W1 (512·s + l) n` at tile `s`,
  so after tile 7 it holds `0 + ∑ₖ X r k · W1 k n`, the whole product over the 4096 features (a sum cut into blocks);
  likewise the up accumulator with `W3`. Second kernel, grid point `t`: row tile `t / 448`, column tile `t / 28 % 16`,
  reduction tile `t % 28`; after tile 27 its accumulator holds `0 + ∑ₙ H r n · W2 n c` over the 14336 features.
-/
import proofs.«103171_g2000707067673186_pallasbulk_507_3_alg».proof.Proof.Gen.ReferenceIdeal.Launch
import proofs.«103171_g2000707067673186_pallasbulk_507_3_alg».proof.Proof.TiledBlock
import proofs.«103171_g2000707067673186_pallasbulk_507_3_alg».proof.Proof.TiledIndex
import proofs.«103171_g2000707067673186_pallasbulk_507_3_alg».proof.Proof.LibTileSum
import proofs.«103171_g2000707067673186_pallasbulk_507_3_alg».proof.Proof.LibSumBlocks

set_option maxRecDepth 16384

noncomputable section

namespace Cert.ReferenceIdeal.TiledSum

open Idealize.ShloMosaic Idealize.ShloMosaic.TcCoe Idealize.ShloMosaic.ValueIdx Idealize.SL.Sem
open Cert.ReferenceIdeal Cert.ReferenceIdeal.Gen Cert.MlpSpec Cert.ReferenceIdeal.TiledBlock Cert.ReferenceIdeal.TiledIndex Finset

variable (V : (c : Dev nD) → (b : Ref sig .tc) → Buf (Elt Ideal) ((c : Thread nD τ).loc b)) (c : Dev nD)

/-- A window's block at a grid point, read off the array the region finds. -/
def blk0 (w : Fin cfg0.W) (t : Fin cfg0.N) : ((cfg0.win w).xblock (cfg0.grid.coords t)).Idx → Elt Ideal (cfg0.win w).elt :=
  ((cfg0.win w).blk t).view.read (Elt Ideal) (V c (Pipeline.arrRef spec0 w))
def blk1 (w : Fin cfg1.W) (t : Fin cfg1.N) : ((cfg1.win w).xblock (cfg1.grid.coords t)).Idx → Elt Ideal (cfg1.win w).elt :=
  ((cfg1.win w).blk t).view.read (Elt Ideal) (V c (Pipeline.arrRef spec1 w))

/-- The arrays at natural coordinates. -/
abbrev X : ℕ → ℕ → EReal := at2 (V c main_v0 : S2048x4096.Idx → EReal)
abbrev W1 : ℕ → ℕ → EReal := at2 (V c main_arg1 : S4096x14336.Idx → EReal)
abbrev W3 : ℕ → ℕ → EReal := at2 (V c main_arg2 : S4096x14336.Idx → EReal)
abbrev Hd : ℕ → ℕ → EReal := at2 (V c main_v1 : S2048x14336.Idx → EReal)
abbrev W2 : ℕ → ℕ → EReal := at2 (V c main_arg3 : S14336x4096.Idx → EReal)

/-! ## The first kernel's blocks -/

theorem x_blk (t : Fin cfg0.N) (p : Fin 256) (l : Fin 512) :
    (blk0 V c 0 t : Vec Ideal S256x512 .f32) (ix2 p l) = X V c (t.val / 448 * 256 + p.val) (t.val % 8 * 512 + l.val) := by
  have hN : t.val < 3584 := lt_of_lt_of_eq t.isLt N0_eq
  have hr : t.val / 448 * 256 + p.val < 2048 := by have := p.isLt; omega
  have hc : t.val % 8 * 512 + l.val < 4096 := by have := l.isLt; omega
  refine Eq.trans ?_ (at2_of_lt _ _ _ hr hc).symm
  unfold blk0
  rw [View.read_apply]
  show (V c main_v0 : S2048x4096.Idx → EReal) (((cfg0.win 0).blk t).view.emb (ix2 p l)) = _
  refine congrArg _ ?_
  funext a
  apply Fin.ext
  match a with
  | ⟨0, _⟩ => show win0_0.index t 0 * 256 + 1 * p.val = t.val / 448 * 256 + p.val; rw [(idx0_x t).1]; omega
  | ⟨1, _⟩ => show win0_0.index t 1 * 512 + 1 * l.val = t.val % 8 * 512 + l.val; rw [(idx0_x t).2]; omega

theorem w1_blk (t : Fin cfg0.N) (l : Fin 512) (q : Fin 256) :
    (blk0 V c 1 t : Vec Ideal S512x256 .f32) (ix2 l q) = W1 V c (t.val % 8 * 512 + l.val) (t.val / 8 % 56 * 256 + q.val) := by
  have hr : t.val % 8 * 512 + l.val < 4096 := by have := l.isLt; omega
  have hc : t.val / 8 % 56 * 256 + q.val < 14336 := by have := q.isLt; omega
  refine Eq.trans ?_ (at2_of_lt _ _ _ hr hc).symm
  unfold blk0
  rw [View.read_apply]
  show (V c main_arg1 : S4096x14336.Idx → EReal) (((cfg0.win 1).blk t).view.emb (ix2 l q)) = _
  refine congrArg _ ?_
  funext a
  apply Fin.ext
  match a with
  | ⟨0, _⟩ => show win0_1.index t 0 * 512 + 1 * l.val = t.val % 8 * 512 + l.val; rw [(idx0_w1 t).1]; omega
  | ⟨1, _⟩ => show win0_1.index t 1 * 256 + 1 * q.val = t.val / 8 % 56 * 256 + q.val; rw [(idx0_w1 t).2]; omega

theorem w3_blk (t : Fin cfg0.N) (l : Fin 512) (q : Fin 256) :
    (blk0 V c 2 t : Vec Ideal S512x256 .f32) (ix2 l q) = W3 V c (t.val % 8 * 512 + l.val) (t.val / 8 % 56 * 256 + q.val) := by
  have hr : t.val % 8 * 512 + l.val < 4096 := by have := l.isLt; omega
  have hc : t.val / 8 % 56 * 256 + q.val < 14336 := by have := q.isLt; omega
  refine Eq.trans ?_ (at2_of_lt _ _ _ hr hc).symm
  unfold blk0
  rw [View.read_apply]
  show (V c main_arg2 : S4096x14336.Idx → EReal) (((cfg0.win 2).blk t).view.emb (ix2 l q)) = _
  refine congrArg _ ?_
  funext a
  apply Fin.ext
  match a with
  | ⟨0, _⟩ => show win0_2.index t 0 * 512 + 1 * l.val = t.val % 8 * 512 + l.val; rw [(idx0_w3 t).1]; omega
  | ⟨1, _⟩ => show win0_2.index t 1 * 256 + 1 * q.val = t.val / 8 % 56 * 256 + q.val; rw [(idx0_w3 t).2]; omega

/-! ## The second kernel's blocks -/

theorem h_blk (t : Fin cfg1.N) (p : Fin 256) (l : Fin 512) :
    (blk1 V c 0 t : Vec Ideal S256x512 .f32) (ix2 p l) = Hd V c (t.val / 448 * 256 + p.val) (t.val % 28 * 512 + l.val) := by
  have hN : t.val < 3584 := lt_of_lt_of_eq t.isLt N1_eq
  have hr : t.val / 448 * 256 + p.val < 2048 := by have := p.isLt; omega
  have hc : t.val % 28 * 512 + l.val < 14336 := by have := l.isLt; omega
  refine Eq.trans ?_ (at2_of_lt _ _ _ hr hc).symm
  unfold blk1
  rw [View.read_apply]
  show (V c main_v1 : S2048x14336.Idx → EReal) (((cfg1.win 0).blk t).view.emb (ix2 p l)) = _
  refine congrArg _ ?_
  funext a
  apply Fin.ext
  match a with
  | ⟨0, _⟩ => show win1_0.index t 0 * 256 + 1 * p.val = t.val / 448 * 256 + p.val; rw [(idx1_h t).1]; omega
  | ⟨1, _⟩ => show win1_0.index t 1 * 512 + 1 * l.val = t.val % 28 * 512 + l.val; rw [(idx1_h t).2]; omega

theorem w2_blk (t : Fin cfg1.N) (l : Fin 512) (q : Fin 256) :
    (blk1 V c 1 t : Vec Ideal S512x256 .f32) (ix2 l q) = W2 V c (t.val % 28 * 512 + l.val) (t.val / 28 % 16 * 256 + q.val) := by
  have hr : t.val % 28 * 512 + l.val < 14336 := by have := l.isLt; omega
  have hc : t.val / 28 % 16 * 256 + q.val < 4096 := by have := q.isLt; omega
  refine Eq.trans ?_ (at2_of_lt _ _ _ hr hc).symm
  unfold blk1
  rw [View.read_apply]
  show (V c main_arg3 : S14336x4096.Idx → EReal) (((cfg1.win 1).blk t).view.emb (ix2 l q)) = _
  refine congrArg _ ?_
  funext a
  apply Fin.ext
  match a with
  | ⟨0, _⟩ => show win1_1.index t 0 * 512 + 1 * l.val = t.val % 28 * 512 + l.val; rw [(idx1_w2 t).1]; omega
  | ⟨1, _⟩ => show win1_1.index t 1 * 256 + 1 * q.val = t.val / 28 % 16 * 256 + q.val; rw [(idx1_w2 t).2]; omega

/-! ## One tile's term, over the arrays -/

/-- The term reduction tile `n % 8` adds to a first-kernel accumulator against the weight `B`. -/
def term0 (B : ℕ → ℕ → EReal) (n : ℕ) (i : S256x256.Idx) : EReal :=
  ∑ l ∈ range 512, X V c (n / 448 * 256 + (i 0).val) (n % 8 * 512 + l) * B (n % 8 * 512 + l) (n / 8 % 56 * 256 + (i 1).val)

/-- The term reduction tile `n % 28` adds to the second kernel's accumulator. -/
def term1 (n : ℕ) (i : S256x256.Idx) : EReal :=
  ∑ l ∈ range 512, Hd V c (n / 448 * 256 + (i 0).val) (n % 28 * 512 + l) * W2 V c (n % 28 * 512 + l) (n / 28 % 16 * 256 + (i 1).val)

theorem gate_term (t : Fin cfg0.N) (p q : Fin 256) (x : Vec Ideal S256x512 .f32) (w : Vec Ideal S512x256 .f32)
    (hx : x = blk0 V c 0 t) (hw : w = blk0 V c 1 t) :
    ∑ l : Fin 512, x (ix2 p l) * w (ix2 l q) = term0 V c (W1 V c) t.val (ix2 p q) := by
  subst hx hw
  unfold term0
  rw [← Fin.sum_univ_eq_sum_range (fun l => X V c (t.val / 448 * 256 + p.val) (t.val % 8 * 512 + l)
    * W1 V c (t.val % 8 * 512 + l) (t.val / 8 % 56 * 256 + q.val)) 512]
  exact Finset.sum_congr rfl fun l _ => by rw [x_blk, w1_blk]

theorem up_term (t : Fin cfg0.N) (p q : Fin 256) (x : Vec Ideal S256x512 .f32) (w : Vec Ideal S512x256 .f32)
    (hx : x = blk0 V c 0 t) (hw : w = blk0 V c 2 t) :
    ∑ l : Fin 512, x (ix2 p l) * w (ix2 l q) = term0 V c (W3 V c) t.val (ix2 p q) := by
  subst hx hw
  unfold term0
  rw [← Fin.sum_univ_eq_sum_range (fun l => X V c (t.val / 448 * 256 + p.val) (t.val % 8 * 512 + l)
    * W3 V c (t.val % 8 * 512 + l) (t.val / 8 % 56 * 256 + q.val)) 512]
  exact Finset.sum_congr rfl fun l _ => by rw [x_blk, w3_blk]

theorem down_term (t : Fin cfg1.N) (p q : Fin 256) (x : Vec Ideal S256x512 .f32) (w : Vec Ideal S512x256 .f32)
    (hx : x = blk1 V c 0 t) (hw : w = blk1 V c 1 t) :
    ∑ l : Fin 512, x (ix2 p l) * w (ix2 l q) = term1 V c t.val (ix2 p q) := by
  subst hx hw
  unfold term1
  rw [← Fin.sum_univ_eq_sum_range (fun l => Hd V c (t.val / 448 * 256 + p.val) (t.val % 28 * 512 + l)
    * W2 V c (t.val % 28 * 512 + l) (t.val / 28 % 16 * 256 + q.val)) 512]
  exact Finset.sum_congr rfl fun l _ => by rw [h_blk, w2_blk]

/-! ## The runs -/

theorem zero_eq : zero = (0 : EReal) := Ideal.ofBits_zero_f32

/-- Eight tiles of a first-kernel accumulator make the whole product over the 4096 features. -/
theorem sum_term0 (B : ℕ → ℕ → EReal) (t : ℕ) (p q : Fin 256) :
    ∑ s ∈ range 8, term0 V c B (8 * (t / 8) + s) (ix2 p q) = gate (X V c) B (t / 448 * 256 + p.val) (t / 8 % 56 * 256 + q.val) := by
  unfold gate
  rw [show (4096 : ℕ) = 8 * 512 from rfl, Cert.SumBlocks.sum_range_mul]
  refine Finset.sum_congr rfl fun s hs => ?_
  have hs8 : s < 8 := Finset.mem_range.mp hs
  unfold term0
  have e1 : (8 * (t / 8) + s) / 448 = t / 448 := by omega
  have e2 : (8 * (t / 8) + s) % 8 = s := by omega
  have e3 : (8 * (t / 8) + s) / 8 % 56 = t / 8 % 56 := by omega
  rw [e1, e2, e3]

/-- Twenty-eight tiles of the second kernel's accumulator make the whole product over the 14336 features. -/
theorem sum_term1 (t : ℕ) (p q : Fin 256) :
    ∑ s ∈ range 28, term1 V c (28 * (t / 28) + s) (ix2 p q)
      = ∑ n ∈ range 14336, Hd V c (t / 448 * 256 + p.val) n * W2 V c n (t / 28 % 16 * 256 + q.val) := by
  rw [show (14336 : ℕ) = 28 * 512 from rfl, Cert.SumBlocks.sum_range_mul]
  refine Finset.sum_congr rfl fun s hs => ?_
  have hs28 : s < 28 := Finset.mem_range.mp hs
  unfold term1
  have e1 : (28 * (t / 28) + s) / 448 = t / 448 := by omega
  have e2 : (28 * (t / 28) + s) % 28 = s := by omega
  have e3 : (28 * (t / 28) + s) / 28 % 16 = t / 28 % 16 := by omega
  rw [e1, e2, e3]

/-- The gate accumulator after the last reduction tile. -/
theorem gate_last (gAt : (n : ℕ) → n < cfg0.N → Vec Ideal S256x256 .f32)
    (h_first : ∀ t : Fin cfg0.N, t.val % 8 = 0 → gAt t.val t.isLt = k0_pay4 (blk0 V c 0 t) (k0_pay1 (F := Ideal)) (blk0 V c 1 t))
    (h_next : ∀ t : Fin cfg0.N, ¬ t.val % 8 = 0 → gAt t.val t.isLt
      = k0_pay4 (blk0 V c 0 t) (gAt (t.val - 1) (Nat.lt_of_le_of_lt (Nat.sub_le _ _) t.isLt)) (blk0 V c 1 t))
    (t : Fin cfg0.N) (ht : t.val % 8 = 7) (p q : Fin 256) :
    gAt t.val t.isLt (ix2 p q) = gate (X V c) (W1 V c) (t.val / 448 * 256 + p.val) (t.val / 8 % 56 * 256 + q.val) := by
  have h := Cert.TileSum.run_last (N := cfg0.N) (ι := S256x256.Idx) 8 (by norm_num) zero gAt (term0 V c (W1 V c))
    (fun n h hn i => by
      obtain ⟨p', q', rfl⟩ : ∃ (p' q' : Fin 256), i = ix2 p' q' := ⟨i 0, i 1, eq_ix2 i⟩
      rw [h_first ⟨n, h⟩ hn, gate_step, gate_zero, gate_term V c ⟨n, h⟩ p' q' _ _ rfl rfl])
    (fun n h hn i => by
      obtain ⟨p', q', rfl⟩ : ∃ (p' q' : Fin 256), i = ix2 p' q' := ⟨i 0, i 1, eq_ix2 i⟩
      rw [h_next ⟨n + 1, h⟩ hn, gate_step, gate_term V c ⟨n + 1, h⟩ p' q' _ _ rfl rfl]; rfl)
    t.val t.isLt ht (ix2 p q)
  rw [h, sum_term0, zero_eq, zero_add]

/-- The up accumulator after the last reduction tile. -/
theorem up_last (uAt : (n : ℕ) → n < cfg0.N → Vec Ideal S256x256 .f32)
    (h_first : ∀ t : Fin cfg0.N, t.val % 8 = 0 → uAt t.val t.isLt = k0_pay5 (blk0 V c 0 t) (k0_pay2 (F := Ideal)) (blk0 V c 2 t))
    (h_next : ∀ t : Fin cfg0.N, ¬ t.val % 8 = 0 → uAt t.val t.isLt
      = k0_pay5 (blk0 V c 0 t) (uAt (t.val - 1) (Nat.lt_of_le_of_lt (Nat.sub_le _ _) t.isLt)) (blk0 V c 2 t))
    (t : Fin cfg0.N) (ht : t.val % 8 = 7) (p q : Fin 256) :
    uAt t.val t.isLt (ix2 p q) = gate (X V c) (W3 V c) (t.val / 448 * 256 + p.val) (t.val / 8 % 56 * 256 + q.val) := by
  have h := Cert.TileSum.run_last (N := cfg0.N) (ι := S256x256.Idx) 8 (by norm_num) zero uAt (term0 V c (W3 V c))
    (fun n h hn i => by
      obtain ⟨p', q', rfl⟩ : ∃ (p' q' : Fin 256), i = ix2 p' q' := ⟨i 0, i 1, eq_ix2 i⟩
      rw [h_first ⟨n, h⟩ hn, up_step, up_zero, up_term V c ⟨n, h⟩ p' q' _ _ rfl rfl])
    (fun n h hn i => by
      obtain ⟨p', q', rfl⟩ : ∃ (p' q' : Fin 256), i = ix2 p' q' := ⟨i 0, i 1, eq_ix2 i⟩
      rw [h_next ⟨n + 1, h⟩ hn, up_step, up_term V c ⟨n + 1, h⟩ p' q' _ _ rfl rfl]; rfl)
    t.val t.isLt ht (ix2 p q)
  rw [h, sum_term0, zero_eq, zero_add]

/-- The down accumulator after the last reduction tile. -/
theorem down_last (accAt : (n : ℕ) → n < cfg1.N → Vec Ideal S256x256 .f32)
    (h_first : ∀ t : Fin cfg1.N, t.val % 28 = 0 → accAt t.val t.isLt = k1_pay2 (k1_pay1 (F := Ideal)) (blk1 V c 0 t) (blk1 V c 1 t))
    (h_next : ∀ t : Fin cfg1.N, ¬ t.val % 28 = 0 → accAt t.val t.isLt
      = k1_pay2 (accAt (t.val - 1) (Nat.lt_of_le_of_lt (Nat.sub_le _ _) t.isLt)) (blk1 V c 0 t) (blk1 V c 1 t))
    (t : Fin cfg1.N) (ht : t.val % 28 = 27) (p q : Fin 256) :
    accAt t.val t.isLt (ix2 p q)
      = ∑ n ∈ range 14336, Hd V c (t.val / 448 * 256 + p.val) n * W2 V c n (t.val / 28 % 16 * 256 + q.val) := by
  have h := Cert.TileSum.run_last (N := cfg1.N) (ι := S256x256.Idx) 28 (by norm_num) zero accAt (term1 V c)
    (fun n h hn i => by
      obtain ⟨p', q', rfl⟩ : ∃ (p' q' : Fin 256), i = ix2 p' q' := ⟨i 0, i 1, eq_ix2 i⟩
      rw [h_first ⟨n, h⟩ hn, down_step, down_zero, down_term V c ⟨n, h⟩ p' q' _ _ rfl rfl])
    (fun n h hn i => by
      obtain ⟨p', q', rfl⟩ : ∃ (p' q' : Fin 256), i = ix2 p' q' := ⟨i 0, i 1, eq_ix2 i⟩
      rw [h_next ⟨n + 1, h⟩ hn, down_step, down_term V c ⟨n + 1, h⟩ p' q' _ _ rfl rfl]; rfl)
    t.val t.isLt ht (ix2 p q)
  rw [h, sum_term1, zero_eq, zero_add]

end Cert.ReferenceIdeal.TiledSum

end
-- ==== Proof.TiledArray.lean ====
/-
  The arrays the reference's two regions leave.

  First region: the output block of (row tile, column tile) is written back once, after the last reduction tile, when it
  holds `act gate up` of its entries; the 8 × 56 blocks tile the 2048 × 14336 array, which therefore ends holding
  `hid r n` everywhere. Second region: likewise the 8 × 16 blocks of the 2048 × 4096 result, each written back holding
  the whole product of the hidden array with `W2` over the 14336 features.
-/
import proofs.«103171_g2000707067673186_pallasbulk_507_3_alg».proof.Proof.GateUpData
import proofs.«103171_g2000707067673186_pallasbulk_507_3_alg».proof.Proof.DownFrame
import proofs.«103171_g2000707067673186_pallasbulk_507_3_alg».proof.Proof.TiledSum

set_option maxRecDepth 16384

noncomputable section

namespace Cert.ReferenceIdeal.TiledArray

open Idealize.ShloMosaic Idealize.ShloMosaic.TcCoe Idealize.ShloMosaic.ValueIdx Idealize.SL.Sem
open Idealize.ShloMosaic.Pipeline (Dat)
open Cert.ReferenceIdeal Cert.ReferenceIdeal.Gen Cert.MlpSpec Cert.ReferenceIdeal.TiledBlock Cert.ReferenceIdeal.TiledIndex
open Cert.ReferenceIdeal.TiledSum Finset

variable (V : (c : Dev nD) → (b : Ref sig .tc) → Buf (Elt Ideal) ((c : Thread nD τ).loc b)) (c : Dev nD)

/-! ## The first region -/

/-- The hidden activations as the 2048 × 14336 array. -/
def Harr : S2048x14336.Idx → EReal := fun i => hid (X V c) (W1 V c) (W3 V c) (i 0).val (i 1).val

theorem hblk_eq (t : Fin cfg0.N) (ht : t.val % 8 = 7) (j : S256x256.Idx) :
    k0_pay6 (GateUp.gAt V c t.val t.isLt) (GateUp.uAt V c t.val t.isLt) j = Harr V c (((cfg0.win 3).blk t).view.emb j) := by
  obtain ⟨p, q, rfl⟩ : ∃ (p q : Fin 256), j = ix2 p q := ⟨j 0, j 1, eq_ix2 j⟩
  rw [hidden_apply,
    gate_last V c (GateUp.gAt V c) (fun t h => GateUp.gAt_first V c t h) (fun t h => GateUp.gAt_next V c t h) t ht p q,
    up_last V c (GateUp.uAt V c) (fun t h => GateUp.uAt_first V c t h) (fun t h => GateUp.uAt_next V c t h) t ht p q]
  unfold Harr hid
  have e0 : ((((cfg0.win 3).blk t).view.emb (ix2 p q)) 0).val = t.val / 448 * 256 + p.val := by
    show win0_3.index t 0 * 256 + 1 * p.val = _; rw [(idx0_h t).1]; omega
  have e1 : ((((cfg0.win 3).blk t).view.emb (ix2 p q)) 1).val = t.val / 8 % 56 * 256 + q.val := by
    show win0_3.index t 1 * 256 + 1 * q.val = _; rw [(idx0_h t).2]; omega
  rw [e0, e1]

theorem flushed0_eq (t : Fin cfg0.N) (hf : (cfg0.win 3).flush t = true) :
    (GateUp.dat0 V c).flushed 3 t = ((cfg0.win 3).blk t).view.read (Elt Ideal) (Harr V c) := by
  have ht : t.val % 8 = 7 := (flush0_3 t).mp hf
  show (cfg0.win 3).cut (grid0.coords t) ((GateUp.dat0 V c).after 3 t) = _
  rw [GateUp.after0_out V c t ht]
  funext j
  exact hblk_eq V c t ht j

theorem mem_blk0 (t : Fin cfg0.N) (i : S2048x14336.Idx) :
    i ∈ ((cfg0.win 3).blk t).view.set ↔ ∀ a : Fin 2, win0_3.index t a * S256x256.size a ≤ (i a).val
      ∧ (i a).val < win0_3.index t a * S256x256.size a + S256x256.size a := by
  show i ∈ ((View.whole main_v1).slice (win0_3.rect t)).set ↔ _
  rw [View.set_slice_whole, Rect.mem_set_unit]
  exact Iff.rfl

theorem cover0 (i : S2048x14336.Idx) :
    ∃ t : Fin cfg0.N, (cfg0.win 3).flush t = true ∧ i ∈ ((cfg0.win 3).blk t).view.set := by
  have h0 : (i 0).val < 2048 := (i 0).isLt
  have h1 : (i 1).val < 14336 := (i 1).isLt
  have hlt : ((i 0).val / 256 * 56 + (i 1).val / 256) * 8 + 7 < cfg0.N := lt_of_lt_of_eq (by omega : _ < 3584) N0_eq.symm
  have hx := idx0_h ⟨((i 0).val / 256 * 56 + (i 1).val / 256) * 8 + 7, hlt⟩
  refine ⟨⟨((i 0).val / 256 * 56 + (i 1).val / 256) * 8 + 7, hlt⟩,
    (flush0_3 _).mpr (by show (((i 0).val / 256 * 56 + (i 1).val / 256) * 8 + 7) % 8 = 7; omega), ?_⟩
  rw [mem_blk0]
  intro a
  match a with
  | ⟨0, _⟩ =>
    show win0_3.index _ 0 * 256 ≤ (i 0).val ∧ (i 0).val < win0_3.index _ 0 * 256 + 256
    rw [hx.1]
    show (((i 0).val / 256 * 56 + (i 1).val / 256) * 8 + 7) / 448 * 256 ≤ (i 0).val
      ∧ (i 0).val < (((i 0).val / 256 * 56 + (i 1).val / 256) * 8 + 7) / 448 * 256 + 256
    omega
  | ⟨1, _⟩ =>
    show win0_3.index _ 1 * 256 ≤ (i 1).val ∧ (i 1).val < win0_3.index _ 1 * 256 + 256
    rw [hx.2]
    show (((i 0).val / 256 * 56 + (i 1).val / 256) * 8 + 7) / 8 % 56 * 256 ≤ (i 1).val
      ∧ (i 1).val < (((i 0).val / 256 * 56 + (i 1).val / 256) * 8 + 7) / 8 % 56 * 256 + 256
    omega

/-- The hidden array after the first region. -/
theorem final0 : (GateUp.dat0 V c).arrAt 3 cfg0.N = Harr V c :=
  (GateUp.dat0 V c).arrAt_eq_of_cover 3 (Harr V c) (flushed0_eq V c) (cover0)

/-! ## The second region -/

/-- The product of the hidden array the region finds with `W2`, as the 2048 × 4096 array. -/
def Yarr : S2048x4096.Idx → EReal :=
  fun i => ∑ n ∈ range 14336, Hd V c (i 0).val n * W2 V c n (i 1).val

theorem yblk_eq (t : Fin cfg1.N) (ht : t.val % 28 = 27) (j : S256x256.Idx) :
    Down.accAt V c t.val t.isLt j = Yarr V c (((cfg1.win 2).blk t).view.emb j) := by
  obtain ⟨p, q, rfl⟩ : ∃ (p q : Fin 256), j = ix2 p q := ⟨j 0, j 1, eq_ix2 j⟩
  rw [down_last V c (Down.accAt V c) (fun t h => Down.accAt_first V c t h) (fun t h => Down.accAt_next V c t h) t ht p q]
  unfold Yarr
  have e0 : ((((cfg1.win 2).blk t).view.emb (ix2 p q)) 0).val = t.val / 448 * 256 + p.val := by
    show win1_2.index t 0 * 256 + 1 * p.val = _; rw [(idx1_y t).1]; omega
  have e1 : ((((cfg1.win 2).blk t).view.emb (ix2 p q)) 1).val = t.val / 28 % 16 * 256 + q.val := by
    show win1_2.index t 1 * 256 + 1 * q.val = _; rw [(idx1_y t).2]; omega
  rw [e0, e1]

theorem flushed1_eq (t : Fin cfg1.N) (hf : (cfg1.win 2).flush t = true) :
    (Down.dat1 V c).flushed 2 t = ((cfg1.win 2).blk t).view.read (Elt Ideal) (Yarr V c) := by
  have ht : t.val % 28 = 27 := (flush1_2 t).mp hf
  show (cfg1.win 2).cut (grid1.coords t) ((Down.dat1 V c).after 2 t) = _
  rw [Down.after1_out V c t ht]
  funext j
  exact yblk_eq V c t ht j

theorem mem_blk1 (t : Fin cfg1.N) (i : S2048x4096.Idx) :
    i ∈ ((cfg1.win 2).blk t).view.set ↔ ∀ a : Fin 2, win1_2.index t a * S256x256.size a ≤ (i a).val
      ∧ (i a).val < win1_2.index t a * S256x256.size a + S256x256.size a := by
  show i ∈ ((View.whole main_v2).slice (win1_2.rect t)).set ↔ _
  rw [View.set_slice_whole, Rect.mem_set_unit]
  exact Iff.rfl

theorem cover1 (i : S2048x4096.Idx) :
    ∃ t : Fin cfg1.N, (cfg1.win 2).flush t = true ∧ i ∈ ((cfg1.win 2).blk t).view.set := by
  have h0 : (i 0).val < 2048 := (i 0).isLt
  have h1 : (i 1).val < 4096 := (i 1).isLt
  have hlt : ((i 0).val / 256 * 16 + (i 1).val / 256) * 28 + 27 < cfg1.N := lt_of_lt_of_eq (by omega : _ < 3584) N1_eq.symm
  have hx := idx1_y ⟨((i 0).val / 256 * 16 + (i 1).val / 256) * 28 + 27, hlt⟩
  refine ⟨⟨((i 0).val / 256 * 16 + (i 1).val / 256) * 28 + 27, hlt⟩,
    (flush1_2 _).mpr (by show (((i 0).val / 256 * 16 + (i 1).val / 256) * 28 + 27) % 28 = 27; omega), ?_⟩
  rw [mem_blk1]
  intro a
  match a with
  | ⟨0, _⟩ =>
    show win1_2.index _ 0 * 256 ≤ (i 0).val ∧ (i 0).val < win1_2.index _ 0 * 256 + 256
    rw [hx.1]
    show (((i 0).val / 256 * 16 + (i 1).val / 256) * 28 + 27) / 448 * 256 ≤ (i 0).val
      ∧ (i 0).val < (((i 0).val / 256 * 16 + (i 1).val / 256) * 28 + 27) / 448 * 256 + 256
    omega
  | ⟨1, _⟩ =>
    show win1_2.index _ 1 * 256 ≤ (i 1).val ∧ (i 1).val < win1_2.index _ 1 * 256 + 256
    rw [hx.2]
    show (((i 0).val / 256 * 16 + (i 1).val / 256) * 28 + 27) / 28 % 16 * 256 ≤ (i 1).val
      ∧ (i 1).val < (((i 0).val / 256 * 16 + (i 1).val / 256) * 28 + 27) / 28 % 16 * 256 + 256
    omega

/-- The result array after the second region. -/
theorem final1 : (Down.dat1 V c).arrAt 2 cfg1.N = Yarr V c :=
  (Down.dat1 V c).arrAt_eq_of_cover 2 (Yarr V c) (flushed1_eq V c) (cover1)

end Cert.ReferenceIdeal.TiledArray

end
-- ==== Proof.TiledResult.lean ====
/-
  What the reference program ends holding, as one function of its four arguments.

  The first region finds the activations reshaped to 2048 rows and the weights as launched, and leaves the hidden
  array `hid`; the second finds that array and `W2` as launched and leaves the down projection; the last line reshapes it.
  So the result is `mlp` of the launch contents of the arguments, and the arguments end as launched.
-/
import proofs.«103171_g2000707067673186_pallasbulk_507_3_alg».proof.Proof.TiledRun
import proofs.«103171_g2000707067673186_pallasbulk_507_3_alg».proof.Proof.TiledArray
import proofs.«103171_g2000707067673186_pallasbulk_507_3_alg».proof.Proof.MlpWhole
import Idealize.ShloMosaic.Lib.StableHlo.Run

set_option maxRecDepth 16384

noncomputable section

namespace Cert.ReferenceIdeal.TiledResult

open Idealize.ShloMosaic Idealize.ShloMosaic.TcCoe Idealize.ShloMosaic.ValueIdx Idealize.SL.Sem
open Cert.ReferenceIdeal Cert.ReferenceIdeal.Gen Cert.MlpSpec Cert.ReferenceIdeal.TiledSum Cert.ReferenceIdeal.TiledArray
open Cert.ReferenceIdeal.TiledRun Finset

variable (m : (ℓ : Loc nD τ sig) → Buf (Elt Ideal) ℓ) (ρ : Dev nD → PrngReg)

/-! ## What the first region finds -/

theorem acts_eq (c : Dev nD) : (V1 m ρ c main_v0 : S2048x4096.Idx → EReal)
    = shapeCast S2048x4096 (m ((c : Thread nD τ).loc main_arg0)) Facts₀.shapeCasts_S4x512x4096_S2048x4096 := by
  show StableHlo.after hostOps0 (W0 m ρ c) (Proc.devRef .tc main_v0) = _
  after_results
  rfl

theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results
theorem V1_arg0 (c : Dev nD) : V1 m ρ c main_arg0 = m ((c : Thread nD τ).loc main_arg0) := by
  show StableHlo.after hostOps0 (W0 m ρ c) (Proc.devRef .tc main_arg0) = _
  after_results

/-! ## What the second region finds -/

theorem hidden_eq (c : Dev nD) : (V2 m ρ c main_v1 : S2048x14336.Idx → EReal) = Harr (V1 m ρ) c :=
  (W2_arr m ρ c 3).trans (final0 (V1 m ρ) c)
theorem V2_arg3 (c : Dev nD) : V2 m ρ c main_arg3 = m ((c : Thread nD τ).loc main_arg3) :=
  (W2_of_ne m ρ c main_arg3 (by decide)).trans (V1_arg3 m ρ c)

/-! ## The result -/

/-- The result array after the second region is the whole down projection of the arguments. -/
theorem down_eq (c : Dev nD) : Yarr (V2 m ρ) c = fun i : S2048x4096.Idx =>
    out (at2 (shapeCast S2048x4096 (m ((c : Thread nD τ).loc main_arg0)) Facts₀.shapeCasts_S4x512x4096_S2048x4096))
      (at2 (m ((c : Thread nD τ).loc main_arg1) : S4096x14336.Idx → EReal)) (at2 (m ((c : Thread nD τ).loc main_arg2) : S4096x14336.Idx → EReal))
      (at2 (m ((c : Thread nD τ).loc main_arg3) : S14336x4096.Idx → EReal)) (i 0).val (i 1).val := by
  funext i
  unfold Yarr out
  refine Finset.sum_congr rfl fun n hn => ?_
  have hn' : n < 14336 := Finset.mem_range.mp hn
  have hr : (i 0).val < 2048 := (i 0).isLt
  have e2 : W2 (V2 m ρ) c = at2 (m ((c : Thread nD τ).loc main_arg3) : S14336x4096.Idx → EReal) := by
    show at2 (V2 m ρ c main_arg3 : S14336x4096.Idx → EReal) = _
    rw [V2_arg3]
  have eh : Hd (V2 m ρ) c (i 0).val n = hid (at2 (shapeCast S2048x4096 (m ((c : Thread nD τ).loc main_arg0)) Facts₀.shapeCasts_S4x512x4096_S2048x4096))
      (at2 (m ((c : Thread nD τ).loc main_arg1) : S4096x14336.Idx → EReal)) (at2 (m ((c : Thread nD τ).loc main_arg2) : S4096x14336.Idx → EReal)) (i 0).val n := by
    show at2 (V2 m ρ c main_v1 : S2048x14336.Idx → EReal) (i 0).val n = _
    rw [hidden_eq, at2_of_lt _ _ _ hr hn']
    unfold Harr
    show hid (at2 (V1 m ρ c main_v0 : S2048x4096.Idx → EReal)) (at2 (V1 m ρ c main_arg1 : S4096x14336.Idx → EReal))
      (at2 (V1 m ρ c main_arg2 : S4096x14336.Idx → EReal)) (i 0).val n = _
    rw [acts_eq, V1_arg1, V1_arg2]
  rw [eh, e2]

/-- The program's result buffer at the end. -/
theorem result_eq (c : Dev nD) : W4 m ρ c (Proc.devRef .tc main_v3)
    = mlp (m ((c : Thread nD τ).loc main_arg0)) (m ((c : Thread nD τ).loc main_arg1)) (m ((c : Thread nD τ).loc main_arg2))
        (m ((c : Thread nD τ).loc main_arg3)) := by
  show StableHlo.after hostOps2 (W3 m ρ c) (Proc.devRef .tc main_v3) = _
  after_results
  have e : W3 m ρ c (Proc.tc.devRef main_v2) = Yarr (V2 m ρ) c := (W3_arr m ρ c 2).trans (final1 (V2 m ρ) c)
  funext i
  show shapeCast S4x512x4096 (W3 m ρ c (Proc.tc.devRef main_v2)) Facts₀.shapeCasts_S2048x4096_S4x512x4096 i = _
  rw [e, down_eq]
  rfl

/-! ## The arguments end as launched -/

theorem W4_arg0 (c : Dev nD) : W4 m ρ c (Proc.devRef .tc main_arg0) = m ((c : Thread nD τ).loc main_arg0) := by
  have h : W4 m ρ c (Proc.devRef .tc main_arg0) = W3 m ρ c (Proc.devRef .tc main_arg0) := by
    show StableHlo.after hostOps2 (W3 m ρ c) (Proc.devRef .tc main_arg0) = _
    after_results
  rw [h, W3_of_ne m ρ c main_arg0 (by decide), W2_of_ne m ρ c main_arg0 (by decide)]
  exact V1_arg0 m ρ c
theorem W4_arg1 (c : Dev nD) : W4 m ρ c (Proc.devRef .tc main_arg1) = m ((c : Thread nD τ).loc main_arg1) := by
  have h : W4 m ρ c (Proc.devRef .tc main_arg1) = W3 m ρ c (Proc.devRef .tc main_arg1) := by
    show StableHlo.after hostOps2 (W3 m ρ c) (Proc.devRef .tc main_arg1) = _
    after_results
  rw [h, W3_of_ne m ρ c main_arg1 (by decide)]
  exact (W2_arr m ρ c 1).trans (((GateUp.dat0 (V1 m ρ) c).arrAt_in 1 rfl _).trans ((GateUp.A_eq0 (V1 m ρ) c 1).trans (V1_arg1 m ρ c)))
theorem W4_arg2 (c : Dev nD) : W4 m ρ c (Proc.devRef .tc main_arg2) = m ((c : Thread nD τ).loc main_arg2) := by
  have h : W4 m ρ c (Proc.devRef .tc main_arg2) = W3 m ρ c (Proc.devRef .tc main_arg2) := by
    show StableHlo.after hostOps2 (W3 m ρ c) (Proc.devRef .tc main_arg2) = _
    after_results
  rw [h, W3_of_ne m ρ c main_arg2 (by decide)]
  exact (W2_arr m ρ c 2).trans (((GateUp.dat0 (V1 m ρ) c).arrAt_in 2 rfl _).trans ((GateUp.A_eq0 (V1 m ρ) c 2).trans (V1_arg2 m ρ c)))
theorem W4_arg3 (c : Dev nD) : W4 m ρ c (Proc.devRef .tc main_arg3) = m ((c : Thread nD τ).loc main_arg3) := by
  have h : W4 m ρ c (Proc.devRef .tc main_arg3) = W3 m ρ c (Proc.devRef .tc main_arg3) := by
    show StableHlo.after hostOps2 (W3 m ρ c) (Proc.devRef .tc main_arg3) = _
    after_results
  rw [h]
  exact (W3_arr m ρ c 1).trans (((Down.dat1 (V2 m ρ) c).arrAt_in 1 rfl _).trans ((Down.A_eq1 (V2 m ρ) c 1).trans (V2_arg3 m ρ c)))

/-- THE RUN, READ: the result buffer ends at the whole computation of the arguments, the arguments as launched. -/
theorem run : θ_run defs (onTc (τ := τ) (main (F := Ideal))) ⟨m, fun _ => 0, ρ⟩ (fun r => ∀ c : Dev nD,
      r.2.mem ((c.tc : Thread nD τ).loc main_v3)
        = mlp (m ((c : Thread nD τ).loc main_arg0)) (m ((c : Thread nD τ).loc main_arg1)) (m ((c : Thread nD τ).loc main_arg2))
            (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v3 (by decide))).trans (result_eq m ρ c),
      (h c _ (mem_uc main_arg0 (by decide))).trans (W4_arg0 m ρ c),
      (h c _ (mem_uc main_arg1 (by decide))).trans (W4_arg1 m ρ c),
      (h c _ (mem_uc main_arg2 (by decide))).trans (W4_arg2 m ρ c),
      (h c _ (mem_uc main_arg3 (by decide))).trans (W4_arg3 m ρ c)⟩)
    (TiledRun.run (F := Ideal) m ρ)

end Cert.ReferenceIdeal.TiledResult

end
-- ==== Proof.lean ====
/-
  The certificate of a fused gated-MLP kernel against a reference that computes the same thing in two tiled kernels.

  Both compute, for activations `X` (4 × 512 × 4096, read as 2048 rows) and weights `W1`, `W3` (4096 × 14336) and `W2`
  (14336 × 4096),
      out r c = ∑ₙ act (∑ₖ X r k · W1 k n) (∑ₖ X r k · W3 k n) · W2 n c,      act g u = g · (1 / (1 + exp (0 − g))) · u.
  The fused kernel takes the inner sums whole and cuts the sum over `n` into 56 groups of 256, adding one group per grid
  point into its output block; the reference cuts the sums over `k` into 8 tiles of 512 and the sum over `n` into 28 tiles
  of 512, each accumulated from the zero word. Over the extended reals `+` is associative and commutative and `0 + x = x`,
  so every arrangement is the same sum: no finiteness of the inputs is used.

  The three frames: each kernel body is run once per case of its conditions on the grid position (first point of a
  run, later points, last point), the accumulators' contents stated point by point; the launch theorems of the pipeline
  library then give termination, no fault, and the arguments unchanged. The ideal pass rewrote nothing.
-/
import proofs.«103171_g2000707067673186_pallasbulk_507_3_alg».proof.Defs
import proofs.«103171_g2000707067673186_pallasbulk_507_3_alg».proof.Proof.Gen.Kernel
import proofs.«103171_g2000707067673186_pallasbulk_507_3_alg».proof.Proof.Gen.KernelIdeal
import proofs.«103171_g2000707067673186_pallasbulk_507_3_alg».proof.Proof.Gen.ReferenceIdeal
import proofs.«103171_g2000707067673186_pallasbulk_507_3_alg».proof.Proof.Gen.Pre_finite_inputs
import proofs.«103171_g2000707067673186_pallasbulk_507_3_alg».proof.Proof.BitsMlpFrame
import proofs.«103171_g2000707067673186_pallasbulk_507_3_alg».proof.Proof.MlpFrame
import proofs.«103171_g2000707067673186_pallasbulk_507_3_alg».proof.Proof.FusedArray
import proofs.«103171_g2000707067673186_pallasbulk_507_3_alg».proof.Proof.TiledResult
import Idealize.ShloMosaic.Adequacy
import Idealize.ShloMosaic.Init

noncomputable section

namespace Cert.Proof

open Idealize.ShloMosaic Idealize.SL.Sem

/-- The fused kernel at the word level runs and leaves its arguments unchanged. -/
theorem frame_k : Cert.frame_Kernel := fun m ρ _ => Cert.Kernel.Body.frame (F := Bits) m ρ

/-- The same program at the ideal values. -/
theorem frame_ki : Cert.frame_KernelIdeal := fun m ρ _ => Cert.KernelIdeal.Body.frame (F := Ideal) m ρ

/-- The reference runs and leaves its arguments unchanged: its run read at the arguments. -/
theorem frame_ri : Cert.frame_ReferenceIdeal := fun m ρ _ =>
  (θ_run Cert.ReferenceIdeal.defs _ _).mono (fun _ h c => (h c).2) (Cert.ReferenceIdeal.TiledResult.run m ρ)

/-- The ideal pass rewrote no operation. -/
theorem preserves : Cert.preserves_Kernel_KernelIdeal := trivial

/-- Both programs end holding `mlp` of the launch contents of their arguments, which agree. -/
theorem algebraic : Cert.algebraic_KernelIdeal_ReferenceIdeal := by
  intro m ρ m' ρ' _ hagree
  refine ⟨fun c => Cert.MlpSpec.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.FusedArray.run m ρ, ?_⟩
  refine (θ_run Cert.ReferenceIdeal.defs _ _).mono (fun _ h c => ⟨(h c).1.trans ?_, (h c).2⟩)
    (Cert.ReferenceIdeal.TiledResult.run m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
